-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S3072 : Shape := ⟨1, ![3072]⟩
abbrev S1x3072 : Shape := ⟨2, ![1, 3072]⟩
abbrev S4096x3072 : Shape := ⟨2, ![4096, 3072]⟩
abbrev S512x1024 : Shape := ⟨2, ![512, 1024]⟩
abbrev S1x1024 : Shape := ⟨2, ![1, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 24
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S4096x3072, .bf16⟩
  | .hbm, ⟨18, _⟩ => ⟨S4096x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S4096x1024, .f32⟩
  | .hbm, ⟨23, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S256x128, .bf16⟩
  | .local _ .vmem, ⟨15, _⟩ => ⟨S256x128, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S256x128_o0_0_S256x64 : S256x128.Slices ![0, 0] S256x64
  slices_S256x128_o0_64_S256x64 : S256x128.Slices ![0, 64] S256x64
  slices_S2048x128_o0_0_S2048x64 : S2048x128.Slices ![0, 0] S2048x64
  slices_S2048x128_o0_64_S2048x64 : S2048x128.Slices ![0, 64] S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  concatenates_S256x64_S256x64_S256x128_d1 : Shape.Concatenates [S256x64, S256x64] S256x128 1
  packedbf16_S256x128_S256x128_0_0 : (Rect.unit (s := S256x128) ![0, 0] S256x128.size inb_S256x128_S256x128_0_0).PackedRows (EltTy.packing .bf16)
  shapeCasts_S1024_S1x1024 : S1024.ShapeCasts S1x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .bf16 = 32 ∨ (Rect.block (s := S4096x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x3072.size a
  hwx1_0 : ∀ i : grid1.Coords, EltTy.bits .bf16 = 32 ∨ (Rect.block (s := S4096x3072) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x1024.size a
  hwx1_3 : ∀ i : grid1.Coords, EltTy.bits .bf16 = 32 ∨ (Rect.block (s := S4096x1024) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S_, .f32⟩
  | .hbm, ⟨34, _⟩ => ⟨S2x16x2048, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x64, .f32⟩
  | .hbm, ⟨46, _⟩ => ⟨S2x2048x16x64, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibSharedFibers.lean ====
/-
  Several windows of a pipeline on one array, for any number of shared arrays.

  A pallas_call may be handed one array through several of its windows, and it may be handed several such arrays. The
  buffers behind the windows' arrays are then fewer than the windows: the map `w ↦ arrRef w` from windows to buffers is
  not injective, and its FIBERS — for a buffer `b`, the windows `w` with `arrRef w = b` — say which windows sit on which
  buffer. What the launch holds is each DISTINCT buffer whole at the full share (`Pipeline.arrBufs`); what the pipeline's
  proof data want is one points-to per WINDOW, at the window's share (`Pipeline.Dat.arrays`). The two agree as soon as,
  buffer by buffer, the full share is dealt among the windows of the buffer's fiber:

  * `bigSep_fibers`: for any finite set `S` of values of a map `f`, the separating conjunction over `j ∈ S` of the
    conjunctions over the fiber of `j` is the conjunction over all indices whose value lies in `S` (induction on `S`:
    the indices with value in `insert j S` are the disjoint union of the fiber of `j` and the indices with value in `S`);
  * `bigSep_image_fiber`: hence a conjunction over the image of `f` whose term at each value is the conjunction of the
    indices' terms over that value's fiber is the conjunction over all indices;
  * `split_halves`: a buffer whole at the full share is the same at the left half and the same at the right half of
    the full share;
  * `arrays_of_fibers`: `arrBufs = Dat.arrays` at the same contents, given for each buffer behind a window's array that
    the buffer at the full share is the conjunction, over the windows on it, of the buffer at each window's share — an
    equality, so it serves a region's entry (deal the shares out) and its exit (gather them again);
  * `arrays_of_unscopedBufs_of_eq`, `unscopedBufs_of_arrays_of_eq`: the two forms a region's entry and exit use — a
    core's unscoped buffers at a valuation are the pipeline's arrays and the unscoped rest, and back at a valuation
    updated at the arrays — with the equality `arrBufs = Dat.arrays` as a hypothesis, whatever the sharing pattern.

  Generic in the configuration, the proof data and the element values; no program is imported.
-/
import Idealize.ShloMosaic.Lib.Pipeline.Launch

noncomputable section

namespace SharedFibers

open Idealize.ShloMosaic Idealize.ShloMosaic.TcCoe Idealize.ShloMosaic.Pipeline
open Idealize.SL Idealize.SL.RA
open Idealize.SL.BI (sProp bigSep bigSep_insert bigSep_congr bigSep_union)
open scoped Idealize.SL.BI
open Idealize.SL.BI.BIBase Idealize.SL.BI.Laws Idealize.SL.Sem

section BigSep

variable {I J : Type} [Fintype I] [DecidableEq I] [DecidableEq J] {M : Type} [URA M]

/-- Over any finite set `S` of values of `f`: the conjunction over `j ∈ S` of the conjunctions over the fiber of `j` is
    the conjunction over the indices whose value lies in `S`. -/
theorem bigSep_fibers (f : I → J) (Ψ : I → sProp M) (S : Finset J) :
    bigSep S (fun j => bigSep (Finset.univ.filter fun i => f i = j) Ψ)
      = bigSep (Finset.univ.filter fun i => f i ∈ S) Ψ := by
  induction S using Finset.induction_on with
  | empty => simp
  | insert j S hj ih =>
    have hsplit : (Finset.univ.filter fun i => f i ∈ insert j S)
        = (Finset.univ.filter fun i => f i = j) ∪ (Finset.univ.filter fun i => f i ∈ S) := by
      ext i
      simp only [Finset.mem_filter, Finset.mem_univ, true_and, Finset.mem_insert, Finset.mem_union]
    have hdisj : Disjoint (Finset.univ.filter fun i => f i = j) (Finset.univ.filter fun i => f i ∈ S) :=
      Finset.disjoint_left.mpr fun {i} h1 h2 =>
        hj ((Finset.mem_filter.mp h1).2 ▸ (Finset.mem_filter.mp h2).2)
    rw [bigSep_insert hj, ih, hsplit, bigSep_union hdisj]

/-- A conjunction over the image of `f` whose term at each value is the conjunction of the indices' terms over that
    value's fiber is the conjunction over all indices. -/
theorem bigSep_image_fiber (f : I → J) (Φ : J → sProp M) (Ψ : I → sProp M)
    (h : ∀ j ∈ Finset.univ.image f, Φ j = bigSep (Finset.univ.filter fun i => f i = j) Ψ) :
    bigSep (Finset.univ.image f) Φ = bigSep Finset.univ Ψ := by
  rw [bigSep_congr h, bigSep_fibers]
  refine congrArg (fun T => bigSep T Ψ) ?_
  ext i
  simp only [Finset.mem_filter, Finset.mem_univ, true_and, Finset.mem_image, iff_true]
  exact ⟨i, rfl⟩

end BigSep

section Arrays

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels}

local notation "𝕄" => MT nD τ sig Ix Val Name U Lvl

/-- A buffer whole at the full share is the same at the left half and the same at the right half of the full share. -/
theorem split_halves (ℓ : Loc nD τ sig) (f : Buf Val ℓ) :
    (ℓ ↦{fullShare} f : sProp 𝕄) = iprop((ℓ ↦{fullShare.left} f) ∗ (ℓ ↦{fullShare.right} f)) := by
  have hsh := pointsTo_share (nD := nD) (τ := τ) (sig := sig) (Ix := Ix) (Val := Val) (Name := Name) (U := U) (Lvl := Lvl)
    (ℓ := ℓ) (I := Finset.univ) (f := f) (PosShare.mem_left_op_right fullShare)
  exact Idealize.SL.BI.equiv_iff.mp ⟨hsh.1, hsh.2⟩

/-- THE FIBERS. Every window's array a whole buffer; for each buffer `b` behind a window's array, the buffer whole at the
    full share at contents `V b` is the conjunction, over the windows `w` on `b`, of the buffer at the share the proof data
    hold window `w`'s array at. Then the distinct buffers behind the arrays, each whole at the full share at contents `V`,
    ARE the proof data's arrays at the contents `F` read off `V`. -/
theorem arrays_of_fibers {cfg : Cfg sig Λ₀} {c : Dev nD} (dat : Dat τ Val Ix Name U Lvl cfg c)
    (harr : ∀ w, (cfg.spec w).arr.IsWhole)
    (V : (b : Ref sig .tc) → Buf Val ((c.tc : Thread nD τ).loc b))
    (F : (w : Fin cfg.W) → Buf Val ((cfg.spec w).arr.view.loc (c.tc : Thread nD τ))) (hF : ∀ w, F w = V (arrRef cfg.spec w))
    (hfib : ∀ b ∈ Finset.univ.image (arrRef cfg.spec),
      ((c.tc : Thread nD τ).loc b ↦{fullShare} V b : sProp 𝕄)
        = bigSep (Finset.univ.filter fun w => arrRef cfg.spec w = b)
            fun w => ((c.tc : Thread nD τ).loc b ↦{dat.share w} V b : sProp 𝕄)) :
    (arrBufs cfg.spec c V : sProp 𝕄) = dat.arrays F := by
  unfold arrBufs Dat.arrays
  refine bigSep_image_fiber (arrRef cfg.spec) _ _ fun b hb => ?_
  rw [hfib b hb]
  refine bigSep_congr fun w hw => ?_
  have hwb : arrRef cfg.spec w = b := (Finset.mem_filter.mp hw).2
  subst hwb
  rw [(harr w).set_eq_univ, hF w]

variable {P : Type} [Fintype P]

/-- ENTRY. A core's unscoped buffers at contents `V` are the pipeline's arrays at the proof data's entry contents —
    those being read off `V` (`hA`) — and the unscoped rest, given that the buffers behind the arrays at `V` are the
    proof data's arrays at any contents read off `V` (`h`). -/
theorem arrays_of_unscopedBufs_of_eq (cfgs : P → Cfg sig Λ₀) (p : P)
    (hun : ∀ w, (arrRef (cfgs p).spec w).isScoped = false) {c : Dev nD} (dat : Dat τ Val Ix Name U Lvl (cfgs p) c)
    (V : (b : Ref sig .tc) → Buf Val ((c.tc : Thread nD τ).loc b))
    (h : ∀ F : (w : Fin (cfgs p).W) → Buf Val (((cfgs p).spec w).arr.view.loc (c.tc : Thread nD τ)),
      (∀ w, F w = V (arrRef (cfgs p).spec w)) → (arrBufs (cfgs p).spec c V : sProp 𝕄) = dat.arrays F)
    (hA : ∀ w, dat.A w = V (arrRef (cfgs p).spec w)) :
    (unscopedBufs c V : sProp 𝕄) ⊢ iprop(dat.arrays (dat.arrAt · 0) ∗ unscopedRest (cfgs p).spec c V) := by
  rw [unscopedBufs_split₀ cfgs p hun c V,
    h (dat.arrAt · 0) (fun w => by rw [show dat.arrAt w 0 = dat.A w from rfl, hA])]

/-- EXIT. The pipeline's arrays at contents `F` and the unscoped rest at `V` are the core's unscoped buffers at any
    valuation `V'` that has the arrays at `F` (`hF`) and agrees with `V` off them (`hrest`), given that the buffers behind
    the arrays at `V'` are the proof data's arrays at any contents read off `V'` (`h`). -/
theorem unscopedBufs_of_arrays_of_eq (cfgs : P → Cfg sig Λ₀) (p : P)
    (hun : ∀ w, (arrRef (cfgs p).spec w).isScoped = false) {c : Dev nD} (dat : Dat τ Val Ix Name U Lvl (cfgs p) c)
    (V V' : (b : Ref sig .tc) → Buf Val ((c.tc : Thread nD τ).loc b))
    (h : ∀ F : (w : Fin (cfgs p).W) → Buf Val (((cfgs p).spec w).arr.view.loc (c.tc : Thread nD τ)),
      (∀ w, F w = V' (arrRef (cfgs p).spec w)) → (arrBufs (cfgs p).spec c V' : sProp 𝕄) = dat.arrays F)
    (F : (w : Fin (cfgs p).W) → Buf Val (((cfgs p).spec w).arr.view.loc (c.tc : Thread nD τ)))
    (hF : ∀ w, F w = V' (arrRef (cfgs p).spec w))
    (hrest : ∀ b, b ∉ Finset.univ.image (arrRef (cfgs p).spec) → V' b = V b) :
    iprop(dat.arrays F ∗ unscopedRest (cfgs p).spec c V) ⊢ (unscopedBufs c V' : sProp 𝕄) := by
  rw [unscopedBufs_split₀ cfgs p hun c V', ← h F hF]
  refine sep_mono .rfl (Entails.of_eq ?_)
  unfold unscopedRest
  exact bigSep_congr fun b hb => by rw [hrest b (Finset.mem_sdiff.mp hb).2]

end Arrays

end SharedFibers

end
-- ==== Proof.KernelRun.lean ====
/-
  The program's run: host operations, three launches, host operations.

  Each launch is a pipeline over a grid: at every grid point the windows' blocks are fetched into staging buffers, the
  body runs on them, and the output block is written back. The two dense launches load an activation block, a weight
  block and a bias row and store their product plus the bias; the attention launch loads a tile of query rows and a
  batch's key and value rows — three windows on ONE array, the packed projections — and stores two heads' contexts side
  by side. Per launch: what each window's buffer holds after the body at each point (the proof data), the body's run on
  whole staging buffers, and the launch as a segment of @main entered from, and left at, a state that holds every
  unscoped buffer at named contents. The contents between the items are a fold from the launch memory (W0 … W6): a host
  stretch applies its operations, a launch replaces its output array by what its write-backs leave. The attention launch
  deals its shared array among its three input windows at entry (a half, and the halves of the other half, of the full
  share) and gathers it again at exit. The run: every weakly fair execution terminates, nothing faulting, with every
  unscoped buffer at the fold's last contents. Stated for any float instance.
-/
import proofs.«108430_j1005022347992_2_alg».proof.Proof.Gen.Kernel.Launch
import proofs.«108430_j1005022347992_2_alg».proof.Proof.Gen.Kernel.Skeleton
import proofs.«108430_j1005022347992_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«108430_j1005022347992_2_alg».proof.Proof.LibSharedFibers

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first dense layer's launch (pipeline 0), at the contents `V` its region is entered with -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or the
    block index stood still since the last fetch (one statement per input window). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-- The output window's staging buffer after the body: its one store, of the layer's value of the three loads. -/
def out0 (x0 : Vec F S512x1024 .f32) (x1 : Vec F S1024x1024 .bf16) (x2 : Vec F S1x1024 .f32) : Vec F S512x1024 .bf16 :=
  View.canon [⟨rx0, k0_pay1 (View.ld x0 rx0) (View.ld x1 rw0) (View.ld x2 rb0)⟩]

theorem cover0 (p0 : Vec F S512x1024 .bf16) (y : S512x1024.Idx) :
    ∃ pc ∈ ([⟨rx0, p0⟩] : List (View.Piece (Elt F) S512x1024 .bf16)), y ∈ pc.1.set :=
  View.cover_of_tiled [⟨rx0, p0⟩] S512x1024.size (by rfl) y

set_option maxHeartbeats 1000000 in
/-- The body on whole staging memrefs: the three inputs at read contents, the output at anything; it leaves the inputs
    as they were and the output at `out0` of them. -/
theorem sound_kernel0 (c : Dev nD) (E : Set ℕ) (i : grid0.Coords)
    (arg2 : Memref sig .tc .vmem S512x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The pipeline's proof data: the arrays as the region finds them; after the body each input's buffer at its block
    and the output's at the layer's value of the input blocks; the untouched scoped rest as the invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

/-! # The attention launch (pipeline 1), at the contents `V` its region is entered with

Its three input windows — a tile of query rows, and all key rows and all value rows of one batch, each a band of 128
columns — sit on ONE array, the packed projections. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or the
    block index stood still since the last fetch (one statement per input window). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rq1 : Rect S256x128 := Rect.unit (s := S256x128) ![0, 0] S256x128.size inb_S256x128_S256x128_0_0
abbrev rk1 : Rect S2048x128 := Rect.unit (s := S2048x128) ![0, 0] S2048x128.size inb_S2048x128_S2048x128_0_0

/-- The output window's staging buffer after the body: its one store, the two heads' contexts side by side. -/
def out1 (x0 : Vec F S256x128 .bf16) (x1 : Vec F S2048x128 .bf16) (x2 : Vec F S2048x128 .bf16) : Vec F S256x128 .bf16 :=
  View.canon [⟨rq1, k1_pay1 (k1_pay5 (View.ld x2 rk1)) (k1_pay6 (View.ld x0 rq1) (View.ld x1 rk1) (View.ld x2 rk1))
    (k1_pay7 (View.ld x0 rq1) (View.ld x1 rk1)) (constant S256x64 .f32 0x00000000#32)⟩]

theorem cover1 (p0 : Vec F S256x128 .bf16) (y : S256x128.Idx) :
    ∃ pc ∈ ([⟨rq1, p0⟩] : List (View.Piece (Elt F) S256x128 .bf16)), y ∈ pc.1.set :=
  View.cover_of_tiled [⟨rq1, p0⟩] S256x128.size (by rfl) y

set_option maxHeartbeats 1000000 in
/-- The body on whole staging memrefs: the three inputs at read contents, the output at anything; it leaves the inputs
    as they were and the output at `out1` of them. -/
theorem sound_kernel1 (c : Dev nD) (E : Set ℕ) (i : grid1.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The three input windows' shares of the one array: a half, and the two halves of the other half. -/
abbrev share1 : Fin cfg1.W → PosShare TreeShare
  | ⟨0, _⟩ => fullShare.left
  | ⟨1, _⟩ => fullShare.right.left
  | ⟨2, _⟩ => fullShare.right.right
  | ⟨3, _⟩ => fullShare

/-- The pipeline's proof data: the arrays as the region finds them; after the body each input's buffer at its block
    and the output's at the two heads' contexts of the input blocks; the untouched scoped rest as the invariant;
    nothing owed; the shared array dealt among its three windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

/-! # The second dense layer's launch (pipeline 2), at the contents `V` its region is entered with -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or the
    block index stood still since the last fetch (one statement per input window). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-- The output window's staging buffer after the body: its one store, of the layer's value of the three loads. -/
def out2 (x0 : Vec F S512x1024 .bf16) (x1 : Vec F S1024x1024 .bf16) (x2 : Vec F S1x1024 .f32) : Vec F S512x1024 .f32 :=
  View.canon [⟨rx2, k2_pay1 (View.ld x0 rx2) (View.ld x1 rw2) (View.ld x2 rb2)⟩]

theorem cover2 (p0 : Vec F S512x1024 .f32) (y : S512x1024.Idx) :
    ∃ pc ∈ ([⟨rx2, p0⟩] : List (View.Piece (Elt F) S512x1024 .f32)), y ∈ pc.1.set :=
  View.cover_of_tiled [⟨rx2, p0⟩] S512x1024.size (by rfl) y

set_option maxHeartbeats 1000000 in
/-- The body on whole staging memrefs: the three inputs at read contents, the output at anything; it leaves the inputs
    as they were and the output at `out2` of them. -/
theorem sound_kernel2 (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The pipeline's proof data: the arrays as the region finds them; after the body each input's buffer at its block
    and the output's at the layer's value of the input blocks; the untouched scoped rest as the invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

/-! # The run: @main's items from the launch to the return

## The buffers' contents between items: a fold through @main -/

section RunAll
variable (m : (ℓ : Loc nD τ sig) → Buf (Elt F) ℓ) (ρ : Dev nD → PrngReg)

/-- A core's buffers at launch. -/
abbrev W0 : Dev nD → Valuation τ sig (Elt F) := fun c b => (s₀ m ρ).mem ((c : Dev nD), b)
/-- After the first host stretch (the packed weights and bias). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the first dense layer's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: the contexts' array at what the pipeline leaves, every other buffer as entered
    (the packed projections, read through three windows, among them). -/
def W3 (c : Dev nD) : Valuation τ sig (Elt F) :=
  Function.update (W2 m ρ c) (Proc.devRef .tc main_v9) ((dat1 (V2 m ρ) c).arrAt 3 cfg1.N)
abbrev V3 : (c : Dev nD) → (b : Ref sig .tc) → Buf (Elt F) ((c : Thread nD τ).loc b) := fun c b => W3 m ρ c b
theorem W3_v9 (c : Dev nD) : W3 m ρ c (Proc.devRef .tc main_v9) = (dat1 (V2 m ρ) c).arrAt 3 cfg1.N := by
  unfold W3; exact Function.update_self ..
theorem W3_of_ne (c : Dev nD) (b : Ref sig .tc) (hb : b ≠ main_v9) : W3 m ρ c (Proc.devRef .tc b) = W2 m ρ c (Proc.devRef .tc b) := by
  unfold W3; exact Function.update_of_ne (StableHlo.devRef_ne_of_ne hb) ..
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of_ne m ρ c main_v8 (by decide)).symm)
  | ⟨1, _⟩ => ((dat1 (V2 m ρ) c).arrAt_in 1 rfl _).trans ((A_eq1 (V2 m ρ) c 1).trans (W3_of_ne m ρ c main_v8 (by decide)).symm)
  | ⟨2, _⟩ => ((dat1 (V2 m ρ) c).arrAt_in 2 rfl _).trans ((A_eq1 (V2 m ρ) c 2).trans (W3_of_ne m ρ c main_v8 (by decide)).symm)
  | ⟨3, _⟩ => (W3_v9 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- After the second host stretch (the output weights and bias). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At the second dense layer's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host stretch (the result's reshape). -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first dense layer's region over the thread state: entered from every unscoped buffer at the entry
    contents, left with them at the exit contents; its arrays split out of the unscoped buffers and put back; the generator register
    into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The packed projections' buffer at the full share is the same buffer at the three windows' shares. -/
theorem deal_v8 (c : Dev nD) (f : Buf (Elt F) ((c.tc : Thread nD τ).loc main_v8)) :
    (((c.tc : Thread nD τ).loc main_v8) ↦{fullShare} f : sProp 𝕄)
      = iprop((((c.tc : Thread nD τ).loc main_v8) ↦{fullShare.left} f) ∗ (((c.tc : Thread nD τ).loc main_v8) ↦{fullShare.right.left} f)
          ∗ (((c.tc : Thread nD τ).loc main_v8) ↦{fullShare.right.right} f)) := by
  have h1 := pointsTo_share (nD := nD) (τ := τ) (sig := sig) (Ix := Unit) (Val := Elt F) (Name := ℕ) (U := UR sig nD τ) (Lvl := ℕ)
    (ℓ := (c.tc : Thread nD τ).loc main_v8) (I := Finset.univ) (f := f) (PosShare.mem_left_op_right fullShare)
  have h2 := pointsTo_share (nD := nD) (τ := τ) (sig := sig) (Ix := Unit) (Val := Elt F) (Name := ℕ) (U := UR sig nD τ) (Lvl := ℕ)
    (ℓ := (c.tc : Thread nD τ).loc main_v8) (I := Finset.univ) (f := f) (PosShare.mem_left_op_right fullShare.right)
  rw [Idealize.SL.BI.equiv_iff.mp ⟨h1.1, h1.2⟩, Idealize.SL.BI.equiv_iff.mp ⟨h2.1, h2.2⟩]

/-- The buffers behind the attention region's arrays, each whole at the full share, are the proof data's arrays. -/
theorem arrays1 (c : Dev nD) (V' : (b : Ref sig .tc) → Buf (Elt F) ((c.tc : Thread nD τ).loc b))
    (Fc : (w : Fin cfg1.W) → Buf (Elt F) ((cfg1.spec w).arr.view.loc (c.tc : Thread nD τ))) (hFc : ∀ w, Fc w = V' (Pipeline.arrRef cfg1.spec w)) :
    (Pipeline.arrBufs cfg1.spec c V' : sProp 𝕄) = (dat1 (V2 m ρ) c).arrays Fc := by
  refine SharedFibers.arrays_of_fibers (dat1 (V2 m ρ) c) arr_whole1 V' Fc hFc fun b hb => ?_
  have hb' : b = main_v8 ∨ b = main_v9 := by
    obtain ⟨w, -, rfl⟩ := Finset.mem_image.mp hb
    match w with
    | ⟨0, _⟩ => exact Or.inl rfl
    | ⟨1, _⟩ => exact Or.inl rfl
    | ⟨2, _⟩ => exact Or.inl rfl
    | ⟨3, _⟩ => exact Or.inr rfl
  rcases hb' with rfl | rfl
  · rw [show (Finset.univ.filter fun w : Fin cfg1.W => Pipeline.arrRef cfg1.spec w = main_v8) = {0, 1, 2} from by decide,
      bigSep_insert (by decide), bigSep_insert (by decide), bigSep_singleton]
    exact deal_v8 c _
  · rw [show (Finset.univ.filter fun w : Fin cfg1.W => Pipeline.arrRef cfg1.spec w = main_v9) = {3} from by decide, bigSep_singleton]
    rfl

set_option backward.isDefEq.respectTransparency.types false in
/-- The attention region over the thread state. Its arrays are two buffers behind four windows: the packed projections
    dealt among the three input windows at entry and gathered at exit, the contexts' array at the full share. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := SharedFibers.arrays_of_unscopedBufs_of_eq (Ix := Unit) (Name := ℕ) (U := UR sig nD τ) (Lvl := ℕ) cfgs 1 winFacts₀1.arr_unscoped
      (dat1 (V2 m ρ) c) (V2 m ρ c) (arrays1 m ρ c (V2 m ρ c)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := SharedFibers.unscopedBufs_of_arrays_of_eq (Ix := Unit) (Name := ℕ) (U := UR sig nD τ) (Lvl := ℕ) cfgs 1 winFacts₀1.arr_unscoped
      (dat1 (V2 m ρ) c) (V2 m ρ c) (V3 m ρ c) (arrays1 m ρ c (V3 m ρ c)) ((dat1 (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- The second dense layer's region over the thread state: entered from every unscoped buffer at the entry
    contents, left with them at the exit contents; its arrays split out of the unscoped buffers and put back; the generator register
    into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end RunAll

end Cert.Kernel.Run

end
-- ==== Proof.KernelFrame.lean ====
/-
  The arguments through the run: no host operation writes an argument and no launch holds one as a window's array, so
  the fold of the buffers' contents through @main leaves each argument at its launch contents; with the run this is the
  program's frame.
-/
import proofs.«108430_j1005022347992_2_alg».proof.Proof.KernelRun
import proofs.«108430_j1005022347992_2_alg».proof.Proof.Gen.Kernel.Regions

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no host stretch writes and no launch holds as a window's array keeps its launch contents through the fold. -/
theorem W6_kept (c : Dev nD) (a : Ref sig .tc) (h0 : a ∉ hostOps0_W) (h2 : a ∉ hostOps2_W) (h3 : a ∉ hostOps3_W)
    (hn0 : ∀ w, Pipeline.arrRef spec0 w ≠ a) (hn1 : a ≠ main_v9) (hn2 : ∀ w, Pipeline.arrRef spec2 w ≠ a) :
    W6 m ρ c (Proc.devRef .tc a) = m ((c : Thread nD τ).loc a) :=
  calc W6 m ρ c (Proc.devRef .tc a)
    _ = W5 m ρ c (Proc.devRef .tc a) := StableHlo.after_of_writes_sub hostOps3 _ hostOps3_writes h3
    _ = W4 m ρ c (Proc.devRef .tc a) := W5_of_ne m ρ c a hn2
    _ = W3 m ρ c (Proc.devRef .tc a) := StableHlo.after_of_writes_sub hostOps2 _ hostOps2_writes h2
    _ = W2 m ρ c (Proc.devRef .tc a) := W3_of_ne m ρ c a hn1
    _ = W1 m ρ c (Proc.devRef .tc a) := W2_of_ne m ρ c a hn0
    _ = W0 m ρ c (Proc.devRef .tc a) := StableHlo.after_of_writes_sub hostOps0 _ hostOps0_writes h0
    _ = m ((c : Thread nD τ).loc a) := rfl

/-- The program runs to the end from any memory with zero counters, nothing faulting, and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide))⟩) (run_all m ρ)

end Cert.Kernel.Run

end
-- ==== Proof.KernelIdealRun.lean ====
/-
  The program's run: host operations, three launches, host operations.

  Each launch is a pipeline over a grid: at every grid point the windows' blocks are fetched into staging buffers, the
  body runs on them, and the output block is written back. The two dense launches load an activation block, a weight
  block and a bias row and store their product plus the bias; the attention launch loads a tile of query rows and a
  batch's key and value rows — three windows on ONE array, the packed projections — and stores two heads' contexts side
  by side. Per launch: what each window's buffer holds after the body at each point (the proof data), the body's run on
  whole staging buffers, and the launch as a segment of @main entered from, and left at, a state that holds every
  unscoped buffer at named contents. The contents between the items are a fold from the launch memory (W0 … W6): a host
  stretch applies its operations, a launch replaces its output array by what its write-backs leave. The attention launch
  deals its shared array among its three input windows at entry (a half, and the halves of the other half, of the full
  share) and gathers it again at exit. The run: every weakly fair execution terminates, nothing faulting, with every
  unscoped buffer at the fold's last contents. Stated for any float instance.
-/
import proofs.«108430_j1005022347992_2_alg».proof.Proof.Gen.KernelIdeal.Launch
import proofs.«108430_j1005022347992_2_alg».proof.Proof.Gen.KernelIdeal.Skeleton
import proofs.«108430_j1005022347992_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«108430_j1005022347992_2_alg».proof.Proof.LibSharedFibers

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first dense layer's launch (pipeline 0), at the contents `V` its region is entered with -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or the
    block index stood still since the last fetch (one statement per input window). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-- The output window's staging buffer after the body: its one store, of the layer's value of the three loads. -/
def out0 (x0 : Vec F S512x1024 .f32) (x1 : Vec F S1024x1024 .bf16) (x2 : Vec F S1x1024 .f32) : Vec F S512x1024 .bf16 :=
  View.canon [⟨rx0, k0_pay1 (View.ld x0 rx0) (View.ld x1 rw0) (View.ld x2 rb0)⟩]

theorem cover0 (p0 : Vec F S512x1024 .bf16) (y : S512x1024.Idx) :
    ∃ pc ∈ ([⟨rx0, p0⟩] : List (View.Piece (Elt F) S512x1024 .bf16)), y ∈ pc.1.set :=
  View.cover_of_tiled [⟨rx0, p0⟩] S512x1024.size (by rfl) y

set_option maxHeartbeats 1000000 in
/-- The body on whole staging memrefs: the three inputs at read contents, the output at anything; it leaves the inputs
    as they were and the output at `out0` of them. -/
theorem sound_kernel0 (c : Dev nD) (E : Set ℕ) (i : grid0.Coords)
    (arg2 : Memref sig .tc .vmem S512x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The pipeline's proof data: the arrays as the region finds them; after the body each input's buffer at its block
    and the output's at the layer's value of the input blocks; the untouched scoped rest as the invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

/-! # The attention launch (pipeline 1), at the contents `V` its region is entered with

Its three input windows — a tile of query rows, and all key rows and all value rows of one batch, each a band of 128
columns — sit on ONE array, the packed projections. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or the
    block index stood still since the last fetch (one statement per input window). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rq1 : Rect S256x128 := Rect.unit (s := S256x128) ![0, 0] S256x128.size inb_S256x128_S256x128_0_0
abbrev rk1 : Rect S2048x128 := Rect.unit (s := S2048x128) ![0, 0] S2048x128.size inb_S2048x128_S2048x128_0_0

/-- The output window's staging buffer after the body: its one store, the two heads' contexts side by side. -/
def out1 (x0 : Vec F S256x128 .bf16) (x1 : Vec F S2048x128 .bf16) (x2 : Vec F S2048x128 .bf16) : Vec F S256x128 .bf16 :=
  View.canon [⟨rq1, k1_pay1 (k1_pay5 (View.ld x2 rk1)) (k1_pay6 (View.ld x0 rq1) (View.ld x1 rk1) (View.ld x2 rk1))
    (k1_pay7 (View.ld x0 rq1) (View.ld x1 rk1)) (constant S256x64 .f32 0x00000000#32)⟩]

theorem cover1 (p0 : Vec F S256x128 .bf16) (y : S256x128.Idx) :
    ∃ pc ∈ ([⟨rq1, p0⟩] : List (View.Piece (Elt F) S256x128 .bf16)), y ∈ pc.1.set :=
  View.cover_of_tiled [⟨rq1, p0⟩] S256x128.size (by rfl) y

set_option maxHeartbeats 1000000 in
/-- The body on whole staging memrefs: the three inputs at read contents, the output at anything; it leaves the inputs
    as they were and the output at `out1` of them. -/
theorem sound_kernel1 (c : Dev nD) (E : Set ℕ) (i : grid1.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The three input windows' shares of the one array: a half, and the two halves of the other half. -/
abbrev share1 : Fin cfg1.W → PosShare TreeShare
  | ⟨0, _⟩ => fullShare.left
  | ⟨1, _⟩ => fullShare.right.left
  | ⟨2, _⟩ => fullShare.right.right
  | ⟨3, _⟩ => fullShare

/-- The pipeline's proof data: the arrays as the region finds them; after the body each input's buffer at its block
    and the output's at the two heads' contexts of the input blocks; the untouched scoped rest as the invariant;
    nothing owed; the shared array dealt among its three windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

/-! # The second dense layer's launch (pipeline 2), at the contents `V` its region is entered with -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or the
    block index stood still since the last fetch (one statement per input window). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-- The output window's staging buffer after the body: its one store, of the layer's value of the three loads. -/
def out2 (x0 : Vec F S512x1024 .bf16) (x1 : Vec F S1024x1024 .bf16) (x2 : Vec F S1x1024 .f32) : Vec F S512x1024 .f32 :=
  View.canon [⟨rx2, k2_pay1 (View.ld x0 rx2) (View.ld x1 rw2) (View.ld x2 rb2)⟩]

theorem cover2 (p0 : Vec F S512x1024 .f32) (y : S512x1024.Idx) :
    ∃ pc ∈ ([⟨rx2, p0⟩] : List (View.Piece (Elt F) S512x1024 .f32)), y ∈ pc.1.set :=
  View.cover_of_tiled [⟨rx2, p0⟩] S512x1024.size (by rfl) y

set_option maxHeartbeats 1000000 in
/-- The body on whole staging memrefs: the three inputs at read contents, the output at anything; it leaves the inputs
    as they were and the output at `out2` of them. -/
theorem sound_kernel2 (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The pipeline's proof data: the arrays as the region finds them; after the body each input's buffer at its block
    and the output's at the layer's value of the input blocks; the untouched scoped rest as the invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

/-! # The run: @main's items from the launch to the return

## The buffers' contents between items: a fold through @main -/

section RunAll
variable (m : (ℓ : Loc nD τ sig) → Buf (Elt F) ℓ) (ρ : Dev nD → PrngReg)

/-- A core's buffers at launch. -/
abbrev W0 : Dev nD → Valuation τ sig (Elt F) := fun c b => (s₀ m ρ).mem ((c : Dev nD), b)
/-- After the first host stretch (the packed weights and bias). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the first dense layer's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: the contexts' array at what the pipeline leaves, every other buffer as entered
    (the packed projections, read through three windows, among them). -/
def W3 (c : Dev nD) : Valuation τ sig (Elt F) :=
  Function.update (W2 m ρ c) (Proc.devRef .tc main_v9) ((dat1 (V2 m ρ) c).arrAt 3 cfg1.N)
abbrev V3 : (c : Dev nD) → (b : Ref sig .tc) → Buf (Elt F) ((c : Thread nD τ).loc b) := fun c b => W3 m ρ c b
theorem W3_v9 (c : Dev nD) : W3 m ρ c (Proc.devRef .tc main_v9) = (dat1 (V2 m ρ) c).arrAt 3 cfg1.N := by
  unfold W3; exact Function.update_self ..
theorem W3_of_ne (c : Dev nD) (b : Ref sig .tc) (hb : b ≠ main_v9) : W3 m ρ c (Proc.devRef .tc b) = W2 m ρ c (Proc.devRef .tc b) := by
  unfold W3; exact Function.update_of_ne (StableHlo.devRef_ne_of_ne hb) ..
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of_ne m ρ c main_v8 (by decide)).symm)
  | ⟨1, _⟩ => ((dat1 (V2 m ρ) c).arrAt_in 1 rfl _).trans ((A_eq1 (V2 m ρ) c 1).trans (W3_of_ne m ρ c main_v8 (by decide)).symm)
  | ⟨2, _⟩ => ((dat1 (V2 m ρ) c).arrAt_in 2 rfl _).trans ((A_eq1 (V2 m ρ) c 2).trans (W3_of_ne m ρ c main_v8 (by decide)).symm)
  | ⟨3, _⟩ => (W3_v9 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- After the second host stretch (the output weights and bias). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At the second dense layer's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host stretch (the result's reshape). -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first dense layer's region over the thread state: entered from every unscoped buffer at the entry
    contents, left with them at the exit contents; its arrays split out of the unscoped buffers and put back; the generator register
    into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The packed projections' buffer at the full share is the same buffer at the three windows' shares. -/
theorem deal_v8 (c : Dev nD) (f : Buf (Elt F) ((c.tc : Thread nD τ).loc main_v8)) :
    (((c.tc : Thread nD τ).loc main_v8) ↦{fullShare} f : sProp 𝕄)
      = iprop((((c.tc : Thread nD τ).loc main_v8) ↦{fullShare.left} f) ∗ (((c.tc : Thread nD τ).loc main_v8) ↦{fullShare.right.left} f)
          ∗ (((c.tc : Thread nD τ).loc main_v8) ↦{fullShare.right.right} f)) := by
  have h1 := pointsTo_share (nD := nD) (τ := τ) (sig := sig) (Ix := Unit) (Val := Elt F) (Name := ℕ) (U := UR sig nD τ) (Lvl := ℕ)
    (ℓ := (c.tc : Thread nD τ).loc main_v8) (I := Finset.univ) (f := f) (PosShare.mem_left_op_right fullShare)
  have h2 := pointsTo_share (nD := nD) (τ := τ) (sig := sig) (Ix := Unit) (Val := Elt F) (Name := ℕ) (U := UR sig nD τ) (Lvl := ℕ)
    (ℓ := (c.tc : Thread nD τ).loc main_v8) (I := Finset.univ) (f := f) (PosShare.mem_left_op_right fullShare.right)
  rw [Idealize.SL.BI.equiv_iff.mp ⟨h1.1, h1.2⟩, Idealize.SL.BI.equiv_iff.mp ⟨h2.1, h2.2⟩]

/-- The buffers behind the attention region's arrays, each whole at the full share, are the proof data's arrays. -/
theorem arrays1 (c : Dev nD) (V' : (b : Ref sig .tc) → Buf (Elt F) ((c.tc : Thread nD τ).loc b))
    (Fc : (w : Fin cfg1.W) → Buf (Elt F) ((cfg1.spec w).arr.view.loc (c.tc : Thread nD τ))) (hFc : ∀ w, Fc w = V' (Pipeline.arrRef cfg1.spec w)) :
    (Pipeline.arrBufs cfg1.spec c V' : sProp 𝕄) = (dat1 (V2 m ρ) c).arrays Fc := by
  refine SharedFibers.arrays_of_fibers (dat1 (V2 m ρ) c) arr_whole1 V' Fc hFc fun b hb => ?_
  have hb' : b = main_v8 ∨ b = main_v9 := by
    obtain ⟨w, -, rfl⟩ := Finset.mem_image.mp hb
    match w with
    | ⟨0, _⟩ => exact Or.inl rfl
    | ⟨1, _⟩ => exact Or.inl rfl
    | ⟨2, _⟩ => exact Or.inl rfl
    | ⟨3, _⟩ => exact Or.inr rfl
  rcases hb' with rfl | rfl
  · rw [show (Finset.univ.filter fun w : Fin cfg1.W => Pipeline.arrRef cfg1.spec w = main_v8) = {0, 1, 2} from by decide,
      bigSep_insert (by decide), bigSep_insert (by decide), bigSep_singleton]
    exact deal_v8 c _
  · rw [show (Finset.univ.filter fun w : Fin cfg1.W => Pipeline.arrRef cfg1.spec w = main_v9) = {3} from by decide, bigSep_singleton]
    rfl

set_option backward.isDefEq.respectTransparency.types false in
/-- The attention region over the thread state. Its arrays are two buffers behind four windows: the packed projections
    dealt among the three input windows at entry and gathered at exit, the contexts' array at the full share. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := SharedFibers.arrays_of_unscopedBufs_of_eq (Ix := Unit) (Name := ℕ) (U := UR sig nD τ) (Lvl := ℕ) cfgs 1 winFacts₀1.arr_unscoped
      (dat1 (V2 m ρ) c) (V2 m ρ c) (arrays1 m ρ c (V2 m ρ c)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := SharedFibers.unscopedBufs_of_arrays_of_eq (Ix := Unit) (Name := ℕ) (U := UR sig nD τ) (Lvl := ℕ) cfgs 1 winFacts₀1.arr_unscoped
      (dat1 (V2 m ρ) c) (V2 m ρ c) (V3 m ρ c) (arrays1 m ρ c (V3 m ρ c)) ((dat1 (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- The second dense layer's region over the thread state: entered from every unscoped buffer at the entry
    contents, left with them at the exit contents; its arrays split out of the unscoped buffers and put back; the generator register
    into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end RunAll

end Cert.KernelIdeal.Run

end
-- ==== Proof.KernelIdealFrame.lean ====
/-
  The arguments through the run: no host operation writes an argument and no launch holds one as a window's array, so
  the fold of the buffers' contents through @main leaves each argument at its launch contents; with the run this is the
  program's frame.
-/
import proofs.«108430_j1005022347992_2_alg».proof.Proof.KernelIdealRun
import proofs.«108430_j1005022347992_2_alg».proof.Proof.Gen.KernelIdeal.Regions

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no host stretch writes and no launch holds as a window's array keeps its launch contents through the fold. -/
theorem W6_kept (c : Dev nD) (a : Ref sig .tc) (h0 : a ∉ hostOps0_W) (h2 : a ∉ hostOps2_W) (h3 : a ∉ hostOps3_W)
    (hn0 : ∀ w, Pipeline.arrRef spec0 w ≠ a) (hn1 : a ≠ main_v9) (hn2 : ∀ w, Pipeline.arrRef spec2 w ≠ a) :
    W6 m ρ c (Proc.devRef .tc a) = m ((c : Thread nD τ).loc a) :=
  calc W6 m ρ c (Proc.devRef .tc a)
    _ = W5 m ρ c (Proc.devRef .tc a) := StableHlo.after_of_writes_sub hostOps3 _ hostOps3_writes h3
    _ = W4 m ρ c (Proc.devRef .tc a) := W5_of_ne m ρ c a hn2
    _ = W3 m ρ c (Proc.devRef .tc a) := StableHlo.after_of_writes_sub hostOps2 _ hostOps2_writes h2
    _ = W2 m ρ c (Proc.devRef .tc a) := W3_of_ne m ρ c a hn1
    _ = W1 m ρ c (Proc.devRef .tc a) := W2_of_ne m ρ c a hn0
    _ = W0 m ρ c (Proc.devRef .tc a) := StableHlo.after_of_writes_sub hostOps0 _ hostOps0_writes h0
    _ = m ((c : Thread nD τ).loc a) := rfl

/-- The program runs to the end from any memory with zero counters, nothing faulting, and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide))⟩) (run_all m ρ)

end Cert.KernelIdeal.Run

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowBroadcast.lean ====
/-
  A row [1, b] broadcast along the rows of an [a, b] array, read at coordinates: the entry (p, c) is the row's entry
  (0, c). (The column counterpart, an [a, 1] column broadcast to [a, b], reads the column's entry (p, 0).)
-/
import Idealize.ShloMosaic.Lib.ValueLayout
import Idealize.ShloMosaic.Lib.Pipeline.Value

namespace RowBroadcast

open Idealize.ShloMosaic Idealize.ShloMosaic.ValueIdx

/-- A [1, b] row broadcast to [a, b] reads, at (p, c), the row's entry at column c. -/
theorem broadcastTo_1b_ab_apply {α : Type} {a b : ℕ} (v : (⟨2, ![1, b]⟩ : Shape).Idx → α)
    (h : (⟨2, ![1, b]⟩ : Shape).Broadcasts ⟨2, ![a, b]⟩) (hb : b ≠ 1) (p : Fin a) (c : Fin b) :
    broadcastTo ⟨2, ![a, b]⟩ v h (ix2 p c) = v (ix2 (0 : Fin 1) c) := by
  refine broadcastTo_apply v h (ix2 p c) (ix2 (0 : Fin 1) c) fun ax => ?_
  match ax with
  | ⟨0, _⟩ => show (0 : Nat) = if (1 : Nat) = 1 then 0 else _; rw [if_pos rfl]
  | ⟨1, _⟩ => show c.val = if b = 1 then 0 else c.val; rw [if_neg hb]

end RowBroadcast
-- ==== Proof.BodyDense.lean ====
/-
  The two dense layers' stored values, read at an entry, on the extended reals.

  Each layer's body forms the product of its [512, 1024] activation block with the [1024, 1024] weight (a matrix
  product into the zero accumulator), adds the bias row broadcast along the rows, and changes formats before and after;
  on the extended reals a format change is the identity and a cast of a shape to itself changes nothing, so the entry
  (p, q) of what is stored is the sum over k of x (p, k) * w (k, q), plus b (0, q).
-/
import proofs.«108430_j1005022347992_2_alg».proof.Proof.Gen.KernelIdeal.Skeleton
import proofs.«108430_j1005022347992_2_alg».proof.Proof.LibPlainDot
import proofs.«108430_j1005022347992_2_alg».proof.Proof.LibRowBroadcast

noncomputable section

namespace Cert.KernelIdeal.BodyValue

open Idealize.ShloMosaic Idealize.ShloMosaic.ValueIdx Cert.KernelIdeal

variable [Cert.KernelIdeal.Facts]

/-- The product into the zero accumulator plus the broadcast bias row, at (p, q). -/
theorem dense_core_apply {φ₁ φ₂ : FTy} (x : FVec Ideal S512x1024 φ₁) (w : FVec Ideal S1024x1024 φ₂) (b : FVec Ideal S1x1024 .f32)
    (hb : S1x1024.Broadcasts S512x1024) (p : Fin 512) (q : Fin 1024) :
    addf (matmul dot_S512x1024_S1024x1024_S512x1024_1_0_0_1_n_n none x w (constant S512x1024 .f32 0x00000000#32))
        (broadcastTo S512x1024 b hb) (ix2 p q)
      = (∑ k : Fin 1024, x (ix2 p k) * w (ix2 k q)) + b (ix2 (0 : Fin 1) q) := by
  refine (addf_apply _ _ _).trans ?_
  refine congrArg₂ (· + ·) ?_ ?_
  · exact PlainDot.matmul_zero_apply 512 1024 1024 none x w (ix2 p q)
  · exact RowBroadcast.broadcastTo_1b_ab_apply b hb (by decide) p q

/-- The first dense layer's stored value at (p, q). -/
theorem dense0_apply (x : Vec Ideal S512x1024 .f32) (w : Vec Ideal S1024x1024 .bf16) (b : Vec Ideal S1x1024 .f32)
    (p : Fin 512) (q : Fin 1024) :
    Gen.k0_pay1 (F := Ideal) x w b (ix2 p q)
      = (∑ k : Fin 1024, x (ix2 p k) * w (ix2 k q)) + b (ix2 (0 : Fin 1) q) := by
  unfold Gen.k0_pay1
  refine (truncf_apply (ψ := .bf16) _ Gen.bitsLt_bf16_f32 _).trans ?_
  rw [shapeCast_self, shapeCast_self, shapeCast_self]
  exact dense_core_apply (φ₁ := .bf16) (truncf .bf16 x Gen.bitsLt_bf16_f32) w b _ p q

/-- The last dense layer's stored value at (p, q). -/
theorem dense2_apply (x : Vec Ideal S512x1024 .bf16) (w : Vec Ideal S1024x1024 .bf16) (b : Vec Ideal S1x1024 .f32)
    (p : Fin 512) (q : Fin 1024) :
    Gen.k2_pay1 (F := Ideal) x w b (ix2 p q)
      = (∑ k : Fin 1024, x (ix2 p k) * w (ix2 k q)) + b (ix2 (0 : Fin 1) q) := by
  unfold Gen.k2_pay1
  rw [shapeCast_self, shapeCast_self, shapeCast_self]
  exact dense_core_apply x w b _ p q

end Cert.KernelIdeal.BodyValue

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibRowSoftmax.lean ====
/-
  The softmax of each row of a matrix, read at an entry.

  For a row of scores s : Fin b → EReal and an accumulator value `bot` the row's maximum is the fold of max from `bot`
  over the scores, and the row's share at column j is exp (s j − maximum) divided by the sum over the columns k of
  exp (s k − maximum). On the extended reals the usual arrangement of a softmax over the second axis of an [a, b]
  array — the maximum over the axis kept as an [a, 1] column and broadcast back, the difference, its exponential, the
  sum of the exponentials over the axis kept and broadcast back likewise, the quotient — reads, at (r, c), the share of
  row r at column c. Nothing is assumed finite: both sides are the same operations of the extended reals.

  Also: taking the maximum with the accumulator value once more changes nothing, the fold being already above it.
-/
import proofs.«108430_j1005022347992_2_alg».proof.Proof.LibKeepdims
import proofs.«108430_j1005022347992_2_alg».proof.Proof.LibRowMax

noncomputable section

namespace RowSoftmax

open Idealize.ShloMosaic Idealize.ShloMosaic.ValueIdx

/-- A row's maximum: the fold of max, from the accumulator value, over its scores. -/
def rowMax {b : ℕ} (bot : EReal) (s : Fin b → EReal) : EReal := (Finset.univ : Finset (Fin b)).fold max bot s

/-- A row's share at column j: its shifted exponential over the sum of the row's shifted exponentials. -/
def share {b : ℕ} (bot : EReal) (s : Fin b → EReal) (j : Fin b) : EReal :=
  Ideal.div (Ideal.exp (s j - rowMax bot s)) (∑ k : Fin b, Ideal.exp (s k - rowMax bot s))

/-- The fold of max from `bot` is above `bot`: one more max with it is the fold. -/
theorem max_rowMax {b : ℕ} (bot : EReal) (s : Fin b → EReal) : max bot (rowMax bot s) = rowMax bot s :=
  max_eq_right ((Finset.le_fold_max bot).mpr (Or.inl le_rfl))

/-- The softmax over the second axis of an [a, b] array, as a kernel arranges it with kept axes, read at (r, c). -/
theorem softmax_rows_apply {a b : ℕ} (v : FVec Ideal (⟨2, ![a, b]⟩ : Shape) .f32) (accM accS : BitVec 32)
    (h : (⟨2, ![a, b]⟩ : Shape).Reduces [1] ⟨1, ![a]⟩) (hφ hφ' : FKind.Formats .f32)
    (hM : accM = FKind.maximumf.neutral .f32 hφ) (hS : accS = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (c : Fin b) :
    divf (exp (subf v (broadcastTo ⟨2, ![a, b]⟩ (shapeCast ⟨2, ![a, 1]⟩ (multiReduction .maximumf [1] ⟨1, ![a]⟩ v accM h hφ hM) hc) hb)))
        (broadcastTo ⟨2, ![a, b]⟩ (shapeCast ⟨2, ![a, 1]⟩
          (multiReduction .add [1] ⟨1, ![a]⟩
            (exp (subf v (broadcastTo ⟨2, ![a, b]⟩ (shapeCast ⟨2, ![a, 1]⟩ (multiReduction .maximumf [1] ⟨1, ![a]⟩ v accM h hφ hM) hc) hb)))
            accS h hφ' hS) hc) hb) (ix2 r c)
      = share (Ideal.ofBits .f32 accM) (fun k => v (ix2 r k)) c := by
  have hmx : ∀ (r' : Fin a) (c' : Fin b),
      broadcastTo ⟨2, ![a, b]⟩ (shapeCast ⟨2, ![a, 1]⟩ (multiReduction .maximumf [1] ⟨1, ![a]⟩ v accM h hφ hM) hc) hb (ix2 r' c')
        = rowMax (Ideal.ofBits .f32 accM) (fun k => v (ix2 r' k)) := fun r' c' =>
    (Keepdims.broadcastTo_a1_ab_apply _ hb r' c').trans
      ((Keepdims.shapeCast_a_a1_apply _ hc r' 0).trans (RowMax.rowMax_apply v accM h hφ hM r'))
  have hp : ∀ (r' : Fin a) (c' : Fin b),
      exp (subf v (broadcastTo ⟨2, ![a, b]⟩ (shapeCast ⟨2, ![a, 1]⟩ (multiReduction .maximumf [1] ⟨1, ![a]⟩ v accM h hφ hM) hc) hb)) (ix2 r' c')
        = Ideal.exp (v (ix2 r' c') - rowMax (Ideal.ofBits .f32 accM) (fun k => v (ix2 r' k))) := fun r' c' =>
    congrArg (fun x => Ideal.exp (v (ix2 r' c') - x)) (hmx r' c')
  refine (divf_apply _ _ _).trans ?_
  rw [hp r c, Keepdims.broadcastTo_a1_ab_apply, Keepdims.rowSumKeep_apply]
  unfold share
  exact congrArg (Ideal.div _) (Finset.sum_congr rfl fun k _ => hp r k)

end RowSoftmax

end
-- ==== Proof.BodyHead.lean ====
/-
  One attention head, read at an entry, on the extended reals.

  For a head's query block qh [256, 64], keys kh [2048, 64] and values vh [2048, 64] the body forms the scores
  qh · khᵀ (a matrix product into the zero accumulator with the transposed keys) times the scale, takes the softmax
  of each row with kept axes, changes the format (the identity on the extended reals) and multiplies by the values.
  At (p, d) this is the sum over the key tokens j of the share of row p at j times vh (j, d), the row's scores being
  the inner products of qh's row p with the rows of kh, times the scale.
-/
import proofs.«108430_j1005022347992_2_alg».proof.Proof.Gen.KernelIdeal.Skeleton
import proofs.«108430_j1005022347992_2_alg».proof.Proof.LibPlainDot
import proofs.«108430_j1005022347992_2_alg».proof.Proof.LibRowSoftmax

noncomputable section

namespace Cert.KernelIdeal.BodyValue

open Idealize.ShloMosaic Idealize.ShloMosaic.ValueIdx Cert.KernelIdeal

variable [Cert.KernelIdeal.Facts]

/-- The transposed keys at (e, j) are the keys at (j, e). -/
theorem transpose_keys_apply (kh : FVec Ideal S2048x64 .bf16) (h : S2048x64.Transposes [1, 0] S64x2048)
    (e : Fin 64) (j : Fin 2048) : transpose S64x2048 [1, 0] kh h (ix2 e j) = kh (ix2 j e) := by
  refine transpose_apply [1, 0] kh h (ix2 e j) (ix2 j e) fun b => ?_
  match b with
  | ⟨0, _⟩ => rfl
  | ⟨1, _⟩ => rfl

/-- A head's scaled scores: the product of the queries with the transposed keys, times the scale. -/
def scores (qh : FVec Ideal S256x64 .bf16) (kh : FVec Ideal S2048x64 .bf16) : FVec Ideal S256x2048 .f32 :=
  mulf (matmul dot_S256x64_S64x2048_S256x2048_1_0_0_1_n_n none qh
      (transpose S64x2048 [1, 0] kh Gen.transposes_S2048x64_p1_0_S64x2048) (constant S256x2048 .f32 0x00000000#32))
    (broadcast S256x2048 (Scalar.ofBits .f32 0x3E000000#32))

/-- The scaled score of query row p against key row j. -/
theorem scores_apply (qh : FVec Ideal S256x64 .bf16) (kh : FVec Ideal S2048x64 .bf16) (p : Fin 256) (j : Fin 2048) :
    scores qh kh (ix2 p j) = (∑ e : Fin 64, qh (ix2 p e) * kh (ix2 j e)) * Ideal.ofBits .f32 0x3E000000#32 := by
  unfold scores
  refine (mulf_apply _ _ _).trans ?_
  refine congrArg₂ (· * ·) ?_ rfl
  refine (PlainDot.matmul_zero_apply 256 64 2048 none qh _ (ix2 p j)).trans ?_
  exact Finset.sum_congr rfl fun e _ => congrArg (qh (ix2 p e) * ·) (transpose_keys_apply kh _ e j)

/-- The rows' softmax with kept axes, as the body arranges it. -/
def weights (s : FVec Ideal S256x2048 .f32) : FVec Ideal S256x2048 .f32 :=
  divf (exp (subf s (broadcastTo S256x2048 (shapeCast S256x1
      (multiReduction .maximumf [1] S256 s 0xFF800000#32 Gen.reduces_S256x2048_S256 (.inl rfl) rfl) Gen.shapeCasts_S256_S256x1)
        Gen.broadcasts_S256x1_S256x2048)))
    (broadcastTo S256x2048 (shapeCast S256x1
      (multiReduction .add [1] S256
        (exp (subf s (broadcastTo S256x2048 (shapeCast S256x1
          (multiReduction .maximumf [1] S256 s 0xFF800000#32 Gen.reduces_S256x2048_S256 (.inl rfl) rfl) Gen.shapeCasts_S256_S256x1)
            Gen.broadcasts_S256x1_S256x2048)))
        0x00000000#32 Gen.reduces_S256x2048_S256 (.inl rfl) rfl) Gen.shapeCasts_S256_S256x1)
      Gen.broadcasts_S256x1_S256x2048)

/-- The weight of row p at column j is the row's share at j. -/
theorem weights_apply (s : FVec Ideal S256x2048 .f32) (p : Fin 256) (j : Fin 2048) :
    weights s (ix2 p j) = RowSoftmax.share (Ideal.ofBits .f32 0xFF800000#32) (fun k => s (ix2 p k)) j :=
  RowSoftmax.softmax_rows_apply s 0xFF800000#32 0x00000000#32 Gen.reduces_S256x2048_S256 (.inl rfl) (.inl rfl) rfl rfl
    Gen.shapeCasts_S256_S256x1 Gen.broadcasts_S256x1_S256x2048 p j

/-- One head's context: the weights, in the values' format, times the values. -/
def head (qh : FVec Ideal S256x64 .bf16) (kh vh : FVec Ideal S2048x64 .bf16) : FVec Ideal S256x64 .f32 :=
  matmul dot_S256x2048_S2048x64_S256x64_1_0_0_1_n_n none
    (truncf .bf16 (weights (scores qh kh)) Gen.bitsLt_bf16_f32) vh (constant S256x64 .f32 0x00000000#32)

/-- One head's context at (p, d). -/
theorem head_apply (qh : FVec Ideal S256x64 .bf16) (kh vh : FVec Ideal S2048x64 .bf16) (p : Fin 256) (d : Fin 64) :
    head qh kh vh (ix2 p d)
      = ∑ j : Fin 2048, RowSoftmax.share (Ideal.ofBits .f32 0xFF800000#32)
            (fun j' => (∑ e : Fin 64, qh (ix2 p e) * kh (ix2 j' e)) * Ideal.ofBits .f32 0x3E000000#32) j
          * vh (ix2 j d) := by
  unfold head
  refine (PlainDot.matmul_zero_apply 256 2048 64 none _ vh (ix2 p d)).trans ?_
  refine Finset.sum_congr rfl fun j _ => congrArg (· * vh (ix2 j d)) ?_
  refine (truncf_apply (ψ := .bf16) (weights (scores qh kh)) Gen.bitsLt_bf16_f32 (ix2 p j)).trans ?_
  refine (weights_apply _ p j).trans ?_
  exact congrArg (fun f => RowSoftmax.share (Ideal.ofBits .f32 0xFF800000#32) f j) (funext fun j' => scores_apply qh kh p j')

end Cert.KernelIdeal.BodyValue

end
-- ==== Proof.BodyAttn.lean ====
/-
  The attention body's stored value, read at an entry, on the extended reals.

  The body holds two heads of width 64 side by side in its 128 columns: head hf owns the columns hf·64 … hf·64+63 of the
  query, key and value blocks. It slices each head's columns out, forms each head's context (scores, row softmax,
  product with the values), lays the two contexts side by side again and changes the format (the identity on the
  extended reals). So the entry (p, hf·64 + d) of what is stored is head hf's context at (p, d), read off the head's
  columns of the three blocks.
-/
import proofs.«108430_j1005022347992_2_alg».proof.Proof.BodyHead

noncomputable section

namespace Cert.KernelIdeal.BodyValue

open Idealize.ShloMosaic Idealize.ShloMosaic.ValueIdx Cert.KernelIdeal

variable [Cert.KernelIdeal.Facts]

/-- Column d of head hf among the body's 128 columns. -/
def lane (hf : Fin 2) (d : Fin 64) : Fin 128 := ⟨hf.val * 64 + d.val, by have := hf.isLt; have := d.isLt; omega⟩

/-- A slice of 64 columns from column off on, read at (r, e): the operand at (r, off + e). -/
theorem slice_cols_apply {α : Type} {n : ℕ} (x : (⟨2, ![n, 128]⟩ : Shape).Idx → α) (off : ℕ)
    (h : (⟨2, ![n, 128]⟩ : Shape).Slices ![0, off] ⟨2, ![n, 64]⟩) (r : Fin n) (e : Fin 64) (c : Fin 128)
    (hc : c.val = off + e.val) :
    extractStridedSlice ⟨2, ![n, 64]⟩ ![0, off] x h (ix2 r e) = x (ix2 r c) := by
  refine extractStridedSlice_apply ![0, off] x h (ix2 r e) (ix2 r c) fun a => ?_
  match a with
  | ⟨0, _⟩ => exact (Nat.zero_add r.val).symm
  | ⟨1, _⟩ => exact hc

/-- The context of the head cut from the columns off = hf·64 on, at (p, d), in terms of the uncut blocks. -/
theorem head_of_slices (q : FVec Ideal S256x128 .bf16) (k v : FVec Ideal S2048x128 .bf16) (off : ℕ) (hf : Fin 2)
    (hoff : off = hf.val * 64) (hq : S256x128.Slices ![0, off] S256x64) (hk : S2048x128.Slices ![0, off] S2048x64)
    (p : Fin 256) (d : Fin 64) :
    head (extractStridedSlice S256x64 ![0, off] q hq) (extractStridedSlice S2048x64 ![0, off] k hk)
        (extractStridedSlice S2048x64 ![0, off] v hk) (ix2 p d)
      = ∑ j : Fin 2048, RowSoftmax.share (Ideal.ofBits .f32 0xFF800000#32)
            (fun j' => (∑ e : Fin 64, q (ix2 p (lane hf e)) * k (ix2 j' (lane hf e))) * Ideal.ofBits .f32 0x3E000000#32) j
          * v (ix2 j (lane hf d)) := by
  have eq : ∀ (r : Fin 256) (e : Fin 64), extractStridedSlice S256x64 ![0, off] q hq (ix2 r e) = q (ix2 r (lane hf e)) :=
    fun r e => slice_cols_apply q off hq r e (lane hf e) (by rw [hoff]; rfl)
  have ek : ∀ (r : Fin 2048) (e : Fin 64), extractStridedSlice S2048x64 ![0, off] k hk (ix2 r e) = k (ix2 r (lane hf e)) :=
    fun r e => slice_cols_apply k off hk r e (lane hf e) (by rw [hoff]; rfl)
  have ev : ∀ (r : Fin 2048) (e : Fin 64), extractStridedSlice S2048x64 ![0, off] v hk (ix2 r e) = v (ix2 r (lane hf e)) :=
    fun r e => slice_cols_apply v off hk r e (lane hf e) (by rw [hoff]; rfl)
  refine (head_apply _ _ _ p d).trans ?_
  refine Finset.sum_congr rfl fun j _ => congrArg₂ (· * ·) ?_ (ev j d)
  refine congrArg (fun f => RowSoftmax.share (Ideal.ofBits .f32 0xFF800000#32) f j) (funext fun j' => ?_)
  refine congrArg (· * Ideal.ofBits .f32 0x3E000000#32) ?_
  exact Finset.sum_congr rfl fun e _ => congrArg₂ (· * ·) (eq p e) (ek j' e)

/-- The first head's context is what the body's first product holds. -/
theorem pay6_eq_head (q : Vec Ideal S256x128 .bf16) (k v : Vec Ideal S2048x128 .bf16) :
    Gen.k1_pay6 (F := Ideal) q k v
      = head (extractStridedSlice S256x64 ![0, 0] q Gen.slices_S256x128_o0_0_S256x64)
          (extractStridedSlice S2048x64 ![0, 0] k Gen.slices_S2048x128_o0_0_S2048x64)
          (extractStridedSlice S2048x64 ![0, 0] v Gen.slices_S2048x128_o0_0_S2048x64) := by
  unfold Gen.k1_pay6 Gen.k1_pay2 Gen.k1_pay3 Gen.k1_pay4
  rw [shapeCast_self, shapeCast_self, shapeCast_self]
  rfl

/-- The second head's context is the body's second product, of the second head's weights with its values. -/
theorem pay7_eq_head (q : Vec Ideal S256x128 .bf16) (k v : Vec Ideal S2048x128 .bf16) :
    matmul dot_S256x2048_S2048x64_S256x64_1_0_0_1_n_n none (Gen.k1_pay7 (F := Ideal) q k) (Gen.k1_pay5 v)
        (constant S256x64 .f32 0x00000000#32)
      = head (extractStridedSlice S256x64 ![0, 64] q Gen.slices_S256x128_o0_64_S256x64)
          (extractStridedSlice S2048x64 ![0, 64] k Gen.slices_S2048x128_o0_64_S2048x64)
          (extractStridedSlice S2048x64 ![0, 64] v Gen.slices_S2048x128_o0_64_S2048x64) := by
  unfold Gen.k1_pay7 Gen.k1_pay5 Gen.k1_pay2 Gen.k1_pay3 Gen.k1_pay4
  rw [shapeCast_self, shapeCast_self, shapeCast_self]
  rfl

/-- The attention body's stored value at (p, hf·64 + d): head hf's context at (p, d). -/
theorem attn_apply (q : Vec Ideal S256x128 .bf16) (k v : Vec Ideal S2048x128 .bf16) (p : Fin 256) (hf : Fin 2) (d : Fin 64) :
    Gen.k1_pay1 (F := Ideal) (Gen.k1_pay5 v) (Gen.k1_pay6 q k v) (Gen.k1_pay7 q k) (constant S256x64 .f32 0x00000000#32)
        (ix2 p (lane hf d))
      = ∑ j : Fin 2048, RowSoftmax.share (Ideal.ofBits .f32 0xFF800000#32)
            (fun j' => (∑ e : Fin 64, q (ix2 p (lane hf e)) * k (ix2 j' (lane hf e))) * Ideal.ofBits .f32 0x3E000000#32) j
          * v (ix2 j (lane hf d)) := by
  unfold Gen.k1_pay1
  refine (truncf_apply (ψ := .bf16) _ Gen.bitsLt_bf16_f32 _).trans ?_
  rw [pay7_eq_head q k v, pay6_eq_head q k v]
  match hf with
  | ⟨0, _⟩ =>
    refine (concatenate_pair_apply_left (t := S256x128) (s₁ := S256x64) (s₂ := S256x64) (1 : Fin 2) _ _ Gen.concatenates_S256x64_S256x64_S256x128_d1
      (ix2 p (lane 0 d)) rfl (ix2 p d) fun b => ?_).trans ?_
    · match b with
      | ⟨0, _⟩ => rfl
      | ⟨1, _⟩ => exact (Nat.zero_add d.val).symm
    · exact head_of_slices q k v 0 0 rfl _ _ p d
  | ⟨1, _⟩ =>
    refine (concatenate_pair_apply_right (t := S256x128) (s₁ := S256x64) (s₂ := S256x64) (1 : Fin 2) _ _ Gen.concatenates_S256x64_S256x64_S256x128_d1
      (ix2 p (lane 1 d)) rfl rfl (ix2 p d) (fun b => ?_) ?_).trans ?_
    · match b with
      | ⟨0, _⟩ => exact fun _ => rfl
      | ⟨1, _⟩ => exact fun hne => absurd rfl hne
    · exact Nat.add_comm d.val 64
    · exact head_of_slices q k v 64 1 rfl _ _ p d

end Cert.KernelIdeal.BodyValue

end
-- ==== Proof.AttnLayout.lean ====
/-
  The packed layout of the attention block's intermediate arrays.

  The three projections of all 4096 = 2·2048 tokens sit side by side in one [4096, 3072] array: token (n, s) is row
  n·2048 + s, and the query, key and value features o are the columns o, 1024 + o and 2048 + o. A context row is
  computed from that array alone: for row r and feature column cc (head cc / 64), the scores of r against the 2048 rows
  of r's batch over the 64 columns of the head, their softmax, and the weighted sum of the value columns.
-/
import Idealize.ShloMosaic.PureOps.Ideal
import Idealize.ShloMosaic.Lib.ValueIdx
import proofs.«108430_j1005022347992_2_alg».proof.Proof.LibRowSoftmax

noncomputable section

namespace AttnLayout

open Idealize.ShloMosaic Idealize.ShloMosaic.ValueIdx

/-- The row of token s of batch n. -/
def row (n : Fin 2) (s : Fin 2048) : Fin 4096 := ⟨n.val * 2048 + s.val, by omega⟩
/-- Column o of band i (0: queries, 1: keys, 2: values) of the packed projections. -/
def band (i : Fin 3) (o : Fin 1024) : Fin 3072 := ⟨i.val * 1024 + o.val, by omega⟩
/-- Row j of the batch that row r belongs to. -/
def batchRow (r : Fin 4096) (j : Fin 2048) : Fin 4096 := ⟨r.val / 2048 * 2048 + j.val, by omega⟩
/-- Column e of the head that feature column cc belongs to, in band i. -/
def headCol (i : Fin 3) (cc : Fin 1024) (e : Fin 64) : Fin 3072 := ⟨i.val * 1024 + cc.val / 64 * 64 + e.val, by omega⟩

/-- A context entry from the packed projections: row r, feature column cc. -/
def ctxOf (c bot : EReal) (P : (⟨2, ![4096, 3072]⟩ : Shape).Idx → EReal) (r : Fin 4096) (cc : Fin 1024) : EReal :=
  ∑ j : Fin 2048, RowSoftmax.share bot
      (fun j' => (∑ e : Fin 64, P (ix2 r (headCol 0 cc e)) * P (ix2 (batchRow r j') (headCol 1 cc e))) * c) j
    * P (ix2 (batchRow r j) (band 2 cc))

end AttnLayout

end
-- ==== Proof.PackedProjections.lean ====
/-
  The packed projections after the first launch, as one function of the launch's three arrays.

  Grid point (j, i) of the 3 × 8 grid multiplies rows i·512 … of the activations with columns j·1024 … of the packed
  weights and adds the packed bias's columns j·1024 …; it writes the block of rows i·512 …, columns j·1024 …. Every entry
  of the [4096, 3072] result is in exactly one such block, and there it is the activations' row against the weights'
  column plus the bias: the blocks are restrictions of one function of the three arrays.
-/
import proofs.«108430_j1005022347992_2_alg».proof.Proof.KernelIdealRun
import proofs.«108430_j1005022347992_2_alg».proof.Proof.BodyDense
import proofs.«108430_j1005022347992_2_alg».proof.Proof.BodyAttn
import proofs.«108430_j1005022347992_2_alg».proof.Proof.AttnLayout
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Run Cert.KernelIdeal.BodyValue
open Idealize.ShloMosaic Idealize.ShloMosaic.TcCoe Idealize.ShloMosaic.ValueIdx Idealize.SL.Sem
open Idealize.ShloMosaic.Pipeline (Dat)

private theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## The first dense layer: the packed projections as one function of the region's three arrays -/

/-- Entry (r, cc) of the packed projections: row r of the activations against column cc of the packed weights, plus the
    packed bias at cc. -/
def packed (X : Vec Ideal S4096x1024 .f32) (W : Vec Ideal S1024x3072 .bf16) (B : Vec Ideal S1x3072 .f32) : Vec Ideal S4096x3072 .bf16 :=
  fun i => (∑ k : Fin 1024, X (ix2 (⟨(i 0).val, (i 0).isLt⟩ : Fin 4096) k) * W (ix2 k (⟨(i 1).val, (i 1).isLt⟩ : Fin 3072)))
    + B (ix2 (0 : Fin 1) (⟨(i 1).val, (i 1).isLt⟩ : Fin 3072))

/-- The printed index maps over the 3 × 8 grid: the activation rows move with the output's row block, the weight and
    bias columns with its column block. -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 2 :=
  (by decide +kernel : ∀ t : Fin grid0.N, _)

theorem idx_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- What grid point t writes back is block t of the packed projections. -/
theorem flushed0_eq (t : Fin cfg0.N) :
    (dat0 V c).flushed 3 t = ((cfg0.win 3).blk t).view.read (Elt Ideal)
      (packed (V c main_v0) (V c main_v5) (V c main_v7)) := by
  show (cfg0.win 3).cut (grid0.coords t) ((dat0 V c).after 3 t) = _
  rw [after0_3]
  unfold out0
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts0 t
  funext j
  obtain ⟨p, q, rfl⟩ : ∃ (p : Fin 512) (q : Fin 1024), j = ix2 p q := ⟨j 0, j 1, eq_ix2 j⟩
  refine (dense0_apply (iblk0 V c 0 t) (iblk0 V c 1 t) (iblk0 V c 2 t) p q).trans ?_
  have hr : win0_3.index t (0 : Fin 2) * 512 + p.val < 4096 := by have := p.isLt; omega
  have hc : win0_3.index t (1 : Fin 2) * 1024 + q.val < 3072 := by have := q.isLt; omega
  have hx : ∀ k : Fin 1024, iblk0 V c 0 t (ix2 p k) = V c main_v0 (ix2 (⟨win0_3.index t (0 : Fin 2) * 512 + p.val, hr⟩ : Fin 4096) k) := fun k => by
    show V c main_v0 (((cfg0.win 0).blk t).view.emb (ix2 p k)) = _
    refine congrArg (V c main_v0) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 1024 + 1 * k.val = k.val; omega
  have hw : ∀ k : Fin 1024, iblk0 V c 1 t (ix2 k q) = V c main_v5 (ix2 k (⟨win0_3.index t (1 : Fin 2) * 1024 + q.val, hc⟩ : Fin 3072)) := fun k => by
    show V c main_v5 (((cfg0.win 1).blk t).view.emb (ix2 k q)) = _
    refine congrArg (V c main_v5) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + q.val; omega
  have hb : iblk0 V c 2 t (ix2 (0 : Fin 1) q) = V c main_v7 (ix2 (0 : Fin 1) (⟨win0_3.index t (1 : Fin 2) * 1024 + q.val, hc⟩ : Fin 3072)) := by
    show V c main_v7 (((cfg0.win 2).blk t).view.emb (ix2 (0 : Fin 1) q)) = _
    refine congrArg (V c main_v7) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  have hemb : ((cfg0.win 3).blk t).view.emb (ix2 p q)
      = ix2 (⟨win0_3.index t (0 : Fin 2) * 512 + p.val, hr⟩ : Fin 4096) (⟨win0_3.index t (1 : Fin 2) * 1024 + q.val, hc⟩ : Fin 3072) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  show _ = packed (V c main_v0) (V c main_v5) (V c main_v7) (((cfg0.win 3).blk t).view.emb (ix2 p q))
  rw [hemb, hb]
  simp only [hx, hw]
  rfl

/-- An index of the packed projections is in point t's block iff each coordinate is in the block's range. -/
theorem mem_blk0 (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8).slice (win0_3.rect t)).set ↔ _
  rw [View.set_slice_whole, Rect.mem_set_unit]
  exact Iff.rfl

/-- The 8 × 3 blocks fill the array. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The packed projections after the first launch. -/
theorem final0 : (dat0 V c).arrAt 3 cfg0.N = packed (V c main_v0) (V c main_v5) (V c main_v7) :=
  (dat0 V c).arrAt_eq_of_cover 3 _ (fun t _ => flushed0_eq V c t) cover0

end Cert.KernelIdeal.Arrays

end
-- ==== Proof.ContextArray.lean ====
/-
  The context array after the attention launch, as one function of the packed projections.

  Grid point (b, hp, qi) of the 2 × 8 × 8 grid takes the 256 query rows b·2048 + qi·256 … of the head pair hp's 128
  query columns, all 2048 rows of batch b of the pair's key columns and of its value columns, and writes the block of
  rows b·2048 + qi·256 …, columns hp·128 … of the [4096, 1024] contexts: at (p, hf·64 + d) head hf's context of query
  row p at the head's column d. Every entry of the result is in exactly one such block, and there it is the context
  computed from the packed projections alone (AttnLayout.ctxOf): the rows of the key and value blocks are the rows of
  the query row's batch, the head's 64 columns in each band are the columns of the entry's head.
-/
import proofs.«108430_j1005022347992_2_alg».proof.Proof.KernelIdealRun
import proofs.«108430_j1005022347992_2_alg».proof.Proof.BodyDense
import proofs.«108430_j1005022347992_2_alg».proof.Proof.BodyAttn
import proofs.«108430_j1005022347992_2_alg».proof.Proof.AttnLayout
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Run Cert.KernelIdeal.BodyValue
open Idealize.ShloMosaic Idealize.ShloMosaic.TcCoe Idealize.ShloMosaic.ValueIdx Idealize.SL.Sem
open Idealize.ShloMosaic.Pipeline (Dat)

private theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## The attention launch: the contexts as one function of the packed projections -/

/-- Entry (r, cc) of the contexts: the context of row r at feature column cc, computed from the packed projections. -/
def contexts (P : Vec Ideal S4096x3072 .bf16) : Vec Ideal S4096x1024 .bf16 :=
  fun i => AttnLayout.ctxOf (Ideal.ofBits .f32 0x3E000000#32) (Ideal.ofBits .f32 0xFF800000#32) P
    (⟨(i 0).val, (i 0).isLt⟩ : Fin 4096) (⟨(i 1).val, (i 1).isLt⟩ : Fin 1024)

/-- The printed index maps over the 2 × 8 × 8 grid: the query block moves with the output block; the key and value
    blocks are the batch of the output's row block (eight row blocks to a batch) and the output's column block moved
    into the key band (8 blocks on) and the value band (16 blocks on). -/
theorem idx_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) / 8 ∧ win1_1.index t (1 : Fin 2) = 8 + win1_3.index t (1 : Fin 2)
    ∧ win1_2.index t (0 : Fin 2) = win1_3.index t (0 : Fin 2) / 8 ∧ win1_2.index t (1 : Fin 2) = 16 + win1_3.index t (1 : Fin 2)
    ∧ win1_3.index t (0 : Fin 2) ≤ 15 ∧ win1_3.index t (1 : Fin 2) ≤ 7 :=
  (by decide +kernel : ∀ t : Fin grid1.N, _)

theorem idx_onto1 : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-- What grid point t writes back is block t of the contexts. -/
theorem flushed1_eq (t : Fin cfg1.N) :
    (dat1 V c).flushed 3 t = ((cfg1.win 3).blk t).view.read (Elt Ideal) (contexts (V c main_v8)) := by
  show (cfg1.win 3).cut (grid1.coords t) ((dat1 V c).after 3 t) = _
  rw [after1_3]
  unfold out1
  rw [View.canon_unit_zero hz]
  simp only [View.ld_unit_zero (S := S256x128) hz, View.ld_unit_zero (S := S2048x128) hz]
  obtain ⟨e0, e1, e2, e3, e4, e5, e6, e7⟩ := idx_facts1 t
  funext j
  obtain ⟨p, q, rfl⟩ : ∃ (p : Fin 256) (q : Fin 128), j = ix2 p q := ⟨j 0, j 1, eq_ix2 j⟩
  obtain ⟨hf, d, rfl⟩ : ∃ (hf : Fin 2) (d : Fin 64), q = lane hf d :=
    ⟨⟨q.val / 64, by have := q.isLt; omega⟩, ⟨q.val % 64, by omega⟩, Fin.ext (by simp only [lane]; omega)⟩
  refine (attn_apply (iblk1 V c 0 t) (iblk1 V c 1 t) (iblk1 V c 2 t) p hf d).trans ?_
  have hp := p.isLt; have hhf := hf.isLt; have hd := d.isLt
  have hr : win1_3.index t (0 : Fin 2) * 256 + p.val < 4096 := by omega
  have hc : win1_3.index t (1 : Fin 2) * 128 + (hf.val * 64 + d.val) < 1024 := by omega
  have hq : ∀ e : Fin 64, iblk1 V c 0 t (ix2 p (lane hf e))
      = V c main_v8 (ix2 (⟨win1_3.index t (0 : Fin 2) * 256 + p.val, hr⟩ : Fin 4096)
          (AttnLayout.headCol 0 (⟨win1_3.index t (1 : Fin 2) * 128 + (hf.val * 64 + d.val), hc⟩ : Fin 1024) e)) := fun e => by
    show V c main_v8 (((cfg1.win 0).blk t).view.emb (ix2 p (lane hf e))) = _
    refine congrArg (V c main_v8) (funext fun a => Fin.ext ?_)
    have he := e.isLt
    match a with
    | ⟨0, _⟩ => show win1_0.index t (0 : Fin 2) * 256 + 1 * p.val = win1_3.index t (0 : Fin 2) * 256 + p.val; omega
    | ⟨1, _⟩ =>
      show win1_0.index t (1 : Fin 2) * 128 + 1 * (hf.val * 64 + e.val)
        = 0 * 1024 + (win1_3.index t (1 : Fin 2) * 128 + (hf.val * 64 + d.val)) / 64 * 64 + e.val
      omega
  have hk : ∀ (j' : Fin 2048) (e : Fin 64), iblk1 V c 1 t (ix2 j' (lane hf e))
      = V c main_v8 (ix2 (AttnLayout.batchRow (⟨win1_3.index t (0 : Fin 2) * 256 + p.val, hr⟩ : Fin 4096) j')
          (AttnLayout.headCol 1 (⟨win1_3.index t (1 : Fin 2) * 128 + (hf.val * 64 + d.val), hc⟩ : Fin 1024) e)) := fun j' e => by
    show V c main_v8 (((cfg1.win 1).blk t).view.emb (ix2 j' (lane hf e))) = _
    refine congrArg (V c main_v8) (funext fun a => Fin.ext ?_)
    have he := e.isLt; have hj := j'.isLt
    match a with
    | ⟨0, _⟩ =>
      show win1_1.index t (0 : Fin 2) * 2048 + 1 * j'.val = (win1_3.index t (0 : Fin 2) * 256 + p.val) / 2048 * 2048 + j'.val
      omega
    | ⟨1, _⟩ =>
      show win1_1.index t (1 : Fin 2) * 128 + 1 * (hf.val * 64 + e.val)
        = 1 * 1024 + (win1_3.index t (1 : Fin 2) * 128 + (hf.val * 64 + d.val)) / 64 * 64 + e.val
      omega
  have hv : ∀ j' : Fin 2048, iblk1 V c 2 t (ix2 j' (lane hf d))
      = V c main_v8 (ix2 (AttnLayout.batchRow (⟨win1_3.index t (0 : Fin 2) * 256 + p.val, hr⟩ : Fin 4096) j')
          (AttnLayout.band 2 (⟨win1_3.index t (1 : Fin 2) * 128 + (hf.val * 64 + d.val), hc⟩ : Fin 1024))) := fun j' => by
    show V c main_v8 (((cfg1.win 2).blk t).view.emb (ix2 j' (lane hf d))) = _
    refine congrArg (V c main_v8) (funext fun a => Fin.ext ?_)
    have hj := j'.isLt
    match a with
    | ⟨0, _⟩ =>
      show win1_2.index t (0 : Fin 2) * 2048 + 1 * j'.val = (win1_3.index t (0 : Fin 2) * 256 + p.val) / 2048 * 2048 + j'.val
      omega
    | ⟨1, _⟩ =>
      show win1_2.index t (1 : Fin 2) * 128 + 1 * (hf.val * 64 + d.val)
        = 2 * 1024 + (win1_3.index t (1 : Fin 2) * 128 + (hf.val * 64 + d.val))
      omega
  have hemb : ((cfg1.win 3).blk t).view.emb (ix2 p (lane hf d))
      = ix2 (⟨win1_3.index t (0 : Fin 2) * 256 + p.val, hr⟩ : Fin 4096)
          (⟨win1_3.index t (1 : Fin 2) * 128 + (hf.val * 64 + d.val), hc⟩ : Fin 1024) := by
    funext a; apply Fin.ext
    match a with
    | ⟨0, _⟩ => show win1_3.index t (0 : Fin 2) * 256 + 1 * p.val = win1_3.index t (0 : Fin 2) * 256 + p.val; omega
    | ⟨1, _⟩ =>
      show win1_3.index t (1 : Fin 2) * 128 + 1 * (hf.val * 64 + d.val) = win1_3.index t (1 : Fin 2) * 128 + (hf.val * 64 + d.val)
      omega
  show _ = contexts (V c main_v8) (((cfg1.win 3).blk t).view.emb (ix2 p (lane hf d)))
  rw [hemb]
  show _ = AttnLayout.ctxOf (Ideal.ofBits .f32 0x3E000000#32) (Ideal.ofBits .f32 0xFF800000#32) (V c main_v8)
      (⟨win1_3.index t (0 : Fin 2) * 256 + p.val, hr⟩ : Fin 4096)
      (⟨win1_3.index t (1 : Fin 2) * 128 + (hf.val * 64 + d.val), hc⟩ : Fin 1024)
  unfold AttnLayout.ctxOf
  refine Finset.sum_congr rfl fun j' _ => congrArg₂ (· * ·) ?_ (hv j')
  refine congrArg (fun f => RowSoftmax.share (Ideal.ofBits .f32 0xFF800000#32) f j') (funext fun j'' => ?_)
  refine congrArg (· * Ideal.ofBits .f32 0x3E000000#32) ?_
  exact Finset.sum_congr rfl fun e _ => congrArg₂ (· * ·) (hq e) (hk j'' e)

/-- An index of the contexts is in point t's block iff each coordinate is in the block's range. -/
theorem mem_blk1 (t : Fin cfg1.N) (i : S4096x1024.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v9).slice (win1_3.rect t)).set ↔ _
  rw [View.set_slice_whole, Rect.mem_set_unit]
  exact Iff.rfl

/-- The 16 × 8 blocks fill the array. -/
theorem cover_blocks1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 256, by omega⟩ ⟨(i 1).val / 128, by omega⟩
  have q0 : win1_3.index t (0 : Fin 2) = (i 0).val / 256 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- The contexts after the attention launch. -/
theorem final1 : (dat1 V c).arrAt 3 cfg1.N = contexts (V c main_v8) :=
  (dat1 V c).arrAt_eq_of_cover 3 _ (fun t _ => flushed1_eq V c t) cover_blocks1

end Cert.KernelIdeal.Arrays

end
-- ==== Proof.OutputArray.lean ====
/-
  The result array after the last launch, as one function of the launch's three arrays.

  Grid point i of the 8 points multiplies rows i·512 … of the contexts with the transposed output weights and adds the
  bias row; it writes rows i·512 … of the [4096, 1024] result. Every entry is in exactly one such block, and there it
  is the contexts' row against the weights' column plus the bias.
-/
import proofs.«108430_j1005022347992_2_alg».proof.Proof.KernelIdealRun
import proofs.«108430_j1005022347992_2_alg».proof.Proof.BodyDense
import proofs.«108430_j1005022347992_2_alg».proof.Proof.BodyAttn
import proofs.«108430_j1005022347992_2_alg».proof.Proof.AttnLayout
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Run Cert.KernelIdeal.BodyValue
open Idealize.ShloMosaic Idealize.ShloMosaic.TcCoe Idealize.ShloMosaic.ValueIdx Idealize.SL.Sem
open Idealize.ShloMosaic.Pipeline (Dat)

private theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## The output dense layer: the result as one function of the region's three arrays -/

/-- Entry (r, cc) of the result array: row r of the activations against column cc of the projected weights, plus the
    projected bias at cc. -/
def projected (X : Vec Ideal S4096x1024 .bf16) (W : Vec Ideal S1024x1024 .bf16) (B : Vec Ideal S1x1024 .f32) : Vec Ideal S4096x1024 .f32 :=
  fun i => (∑ k : Fin 1024, X (ix2 (⟨(i 0).val, (i 0).isLt⟩ : Fin 4096) k) * W (ix2 k (⟨(i 1).val, (i 1).isLt⟩ : Fin 1024)))
    + B (ix2 (0 : Fin 1) (⟨(i 1).val, (i 1).isLt⟩ : Fin 1024))

/-- The printed index maps over the 1 × 8 grid: the activation rows move with the output's row block, the weight and
    bias columns with its column block. -/
theorem idx_facts2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 7 ∧ win2_3.index t (1 : Fin 2) ≤ 0 :=
  (by decide +kernel : ∀ t : Fin grid2.N, _)

theorem idx_onto2 : ∀ (q0 : Fin 8) (q1 : Fin 1), ∃ t : Fin cfg2.N, win2_3.index t = ![q0.val, q1.val] :=
  (by decide +kernel : ∀ (q0 : Fin 8) (q1 : Fin 1), ∃ t : Fin grid2.N, win2_3.index t = ![q0.val, q1.val])

/-- What grid point t writes back is block t of the result array. -/
theorem flushed2_eq (t : Fin cfg2.N) :
    (dat2 V c).flushed 3 t = ((cfg2.win 3).blk t).view.read (Elt Ideal)
      (projected (V c main_v9) (V c main_v11) (V c main_v12)) := by
  show (cfg2.win 3).cut (grid2.coords t) ((dat2 V c).after 3 t) = _
  rw [after2_3]
  unfold out2
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts2 t
  funext j
  obtain ⟨p, q, rfl⟩ : ∃ (p : Fin 512) (q : Fin 1024), j = ix2 p q := ⟨j 0, j 1, eq_ix2 j⟩
  refine (dense2_apply (iblk2 V c 0 t) (iblk2 V c 1 t) (iblk2 V c 2 t) p q).trans ?_
  have hr : win2_3.index t (0 : Fin 2) * 512 + p.val < 4096 := by have := p.isLt; omega
  have hc : win2_3.index t (1 : Fin 2) * 1024 + q.val < 1024 := by have := q.isLt; omega
  have hx : ∀ k : Fin 1024, iblk2 V c 0 t (ix2 p k) = V c main_v9 (ix2 (⟨win2_3.index t (0 : Fin 2) * 512 + p.val, hr⟩ : Fin 4096) k) := fun k => by
    show V c main_v9 (((cfg2.win 0).blk t).view.emb (ix2 p k)) = _
    refine congrArg (V c main_v9) (funext fun a => Fin.ext ?_)
    match a with
    | ⟨0, _⟩ => show win2_0.index t (0 : Fin 2) * 512 + 1 * p.val = win2_3.index t (0 : Fin 2) * 512 + p.val; omega
    | ⟨1, _⟩ => show win2_0.index t (1 : Fin 2) * 1024 + 1 * k.val = k.val; omega
  have hw : ∀ k : Fin 1024, iblk2 V c 1 t (ix2 k q) = V c main_v11 (ix2 k (⟨win2_3.index t (1 : Fin 2) * 1024 + q.val, hc⟩ : Fin 1024)) := fun k => by
    show V c main_v11 (((cfg2.win 1).blk t).view.emb (ix2 k q)) = _
    refine congrArg (V c main_v11) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + q.val; omega
  have hb : iblk2 V c 2 t (ix2 (0 : Fin 1) q) = V c main_v12 (ix2 (0 : Fin 1) (⟨win2_3.index t (1 : Fin 2) * 1024 + q.val, hc⟩ : Fin 1024)) := by
    show V c main_v12 (((cfg2.win 2).blk t).view.emb (ix2 (0 : Fin 1) q)) = _
    refine congrArg (V c main_v12) (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + q.val; omega
  have hemb : ((cfg2.win 3).blk t).view.emb (ix2 p q)
      = ix2 (⟨win2_3.index t (0 : Fin 2) * 512 + p.val, hr⟩ : Fin 4096) (⟨win2_3.index t (1 : Fin 2) * 1024 + q.val, hc⟩ : Fin 1024) := by
    funext a; apply Fin.ext
    match a with
    | ⟨0, _⟩ => show win2_3.index t (0 : Fin 2) * 512 + 1 * p.val = win2_3.index t (0 : Fin 2) * 512 + p.val; omega
    | ⟨1, _⟩ => show win2_3.index t (1 : Fin 2) * 1024 + 1 * q.val = win2_3.index t (1 : Fin 2) * 1024 + q.val; omega
  show _ = projected (V c main_v9) (V c main_v11) (V c main_v12) (((cfg2.win 3).blk t).view.emb (ix2 p q))
  rw [hemb, hb]
  simp only [hx, hw]
  rfl

/-- An index of the result array is in point t's block iff each coordinate is in the block's range. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v13).slice (win2_3.rect t)).set ↔ _
  rw [View.set_slice_whole, Rect.mem_set_unit]
  exact Iff.rfl

/-- The 8 blocks of rows fill the array. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the last launch. -/
theorem final2 : (dat2 V c).arrAt 3 cfg2.N = projected (V c main_v9) (V c main_v11) (V c main_v12) :=
  (dat2 V c).arrAt_eq_of_cover 3 _ (fun t _ => flushed2_eq V c t) cover2

end Cert.KernelIdeal.Arrays

end
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.HostGlue.lean ====
/-
  The host operations around the three kernel launches, read at an entry.

  Before the first launch the tokens [2, 2048, 1024] are laid out as 4096 rows; the three projection weights are
  transposed and laid side by side in a [1024, 3072] array, whose format is then changed (the identity on the extended
  reals); the three biases are laid end to end and made a row. Before the last launch the output weight is transposed
  and its format changed, its bias made a row; after it the 4096 rows are split into the two batches again. Each of
  these is a re-indexing: the entry read is an entry of one of the operands.
-/
import proofs.«108430_j1005022347992_2_alg».proof.Proof.Gen.KernelIdeal
import proofs.«108430_j1005022347992_2_alg».proof.Proof.AttnLayout
import proofs.«108430_j1005022347992_2_alg».proof.Proof.LibFlattenRows
import proofs.«108430_j1005022347992_2_alg».proof.Proof.LibRowVector
import Idealize.ShloMosaic.Lib.Pipeline.Value
import Idealize.ShloMosaic.Lib.ValueIdx

noncomputable section

namespace Cert.KernelIdeal.HostGlue

open Idealize.ShloMosaic Idealize.ShloMosaic.ValueIdx Cert.KernelIdeal
open Cert.KernelIdeal.Facts₀ Cert.KernelIdeal.Facts

variable [Cert.KernelIdeal.Facts]

/-! ## The tokens as rows, and back -/

/-- Row n·2048 + s of the flattened tokens is token s of batch n. -/
theorem v0_apply (X : FVec Ideal S2x2048x1024 .f32) (n : Fin 2) (s : Fin 2048) (k : Fin 1024) :
    shapeCast S4096x1024 X shapeCasts_S2x2048x1024_S4096x1024 (ix2 (AttnLayout.row n s) k) = X (ix3 n s k) :=
  Cert.FlattenRows.flatten_apply X _ n s k (AttnLayout.row n s) rfl

/-- Token s of batch n of the split rows is row n·2048 + s. -/
theorem v14_apply (O : FVec Ideal S4096x1024 .f32) (n : Fin 2) (s : Fin 2048) (o : Fin 1024) :
    shapeCast S2x2048x1024 O shapeCasts_S4096x1024_S2x2048x1024 (ix3 n s o) = O (ix2 (AttnLayout.row n s) o) :=
  Cert.FlattenRows.unflatten_apply O _ n s o (AttnLayout.row n s) rfl

/-! ## A transposed square matrix, and a vector as a row -/

/-- A transposed [1024, 1024] matrix at (k, o) is the matrix at (o, k). -/
theorem transpose_sq_apply {α : Type} (W : S1024x1024.Idx → α) (h : S1024x1024.Transposes [1, 0] S1024x1024)
    (k o : Fin 1024) : transpose S1024x1024 [1, 0] W h (ix2 k o) = W (ix2 o k) := by
  refine transpose_apply [1, 0] W h (ix2 k o) (ix2 o k) fun b => ?_
  match b with
  | ⟨0, _⟩ => rfl
  | ⟨1, _⟩ => rfl

/-- The output weight, transposed and in the kernel's format, at (k, o): the weight at (o, k). -/
theorem v11_apply (Wo : FVec Ideal S1024x1024 .f32) (k o : Fin 1024) :
    truncf .bf16 (transpose S1024x1024 [1, 0] Wo transposes_S1024x1024_S1024x1024_1_0) bitsLt_bf16_f32 (ix2 k o)
      = Wo (ix2 o k) :=
  (truncf_apply (ψ := .bf16) _ bitsLt_bf16_f32 _).trans (transpose_sq_apply Wo _ k o)

/-- The output bias as a row, at (0, o): the bias at o. -/
theorem v12_apply (bo : FVec Ideal S1024 .f32) (o : Fin 1024) :
    shapeCast S1x1024 bo shapeCasts_S1024_S1x1024 (ix2 (0 : Fin 1) o) = bo (ix1 o) :=
  RowVector.shapeCast_n_1n_apply bo _ 0 o

/-! ## The three projections' weights side by side, and their biases end to end -/

/-- Three [1024, 1024] matrices side by side, at (k, i·1024 + o): matrix i at (k, o). -/
theorem bands_apply {α : Type} (A B C : S1024x1024.Idx → α)
    (h : Shape.Concatenates [S1024x1024, S1024x1024, S1024x1024] S1024x3072 1) (k o : Fin 1024) :
    concatenate S1024x3072 1 [⟨S1024x1024, A⟩, ⟨S1024x1024, B⟩, ⟨S1024x1024, C⟩] h (ix2 k (AttnLayout.band 0 o)) = A (ix2 k o)
    ∧ concatenate S1024x3072 1 [⟨S1024x1024, A⟩, ⟨S1024x1024, B⟩, ⟨S1024x1024, C⟩] h (ix2 k (AttnLayout.band 1 o)) = B (ix2 k o)
    ∧ concatenate S1024x3072 1 [⟨S1024x1024, A⟩, ⟨S1024x1024, B⟩, ⟨S1024x1024, C⟩] h (ix2 k (AttnLayout.band 2 o)) = C (ix2 k o) := by
  have hi : ∀ (i : Fin 3) (b : Fin 2), b.cast (rfl : S1024x1024.rank = S1024x3072.rank) ≠ (1 : Fin 2) →
      ((ix2 k o : S1024x1024.Idx) b).val = ((ix2 k (AttnLayout.band i o) : S1024x3072.Idx) (b.cast rfl)).val := fun i b => by
    match b with
    | ⟨0, _⟩ => exact fun _ => rfl
    | ⟨1, _⟩ => exact fun hne => absurd rfl hne
  refine ⟨?_, ?_, ?_⟩
  · exact concatenate_apply_piece (t := S1024x3072) (1 : Fin 2) [⟨S1024x1024, A⟩, ⟨S1024x1024, B⟩, ⟨S1024x1024, C⟩] h (ix2 k (AttnLayout.band 0 o)) 0 (by show 0 < 3; omega)
      S1024x1024 A rfl rfl 0 rfl (ix2 k o) (hi 0) (by show 0 + o.val = 0 * 1024 + o.val; omega)
  · exact concatenate_apply_piece (t := S1024x3072) (1 : Fin 2) [⟨S1024x1024, A⟩, ⟨S1024x1024, B⟩, ⟨S1024x1024, C⟩] h (ix2 k (AttnLayout.band 1 o)) 1 (by show 1 < 3; omega)
      S1024x1024 B rfl rfl 1024 rfl (ix2 k o) (hi 1) (by show 1024 + o.val = 1 * 1024 + o.val; omega)
  · exact concatenate_apply_piece (t := S1024x3072) (1 : Fin 2) [⟨S1024x1024, A⟩, ⟨S1024x1024, B⟩, ⟨S1024x1024, C⟩] h (ix2 k (AttnLayout.band 2 o)) 2 (by show 2 < 3; omega)
      S1024x1024 C rfl rfl 2048 rfl (ix2 k o) (hi 2) (by show 2048 + o.val = 2 * 1024 + o.val; omega)

/-- The packed weights at (k, o) of the query band: the query weight at (o, k). -/
theorem v5_apply_q (Wq Wk Wv : FVec Ideal S1024x1024 .f32) (k o : Fin 1024) :
    truncf .bf16 (concatenate S1024x3072 1
        [⟨S1024x1024, transpose S1024x1024 [1, 0] Wq transposes_S1024x1024_S1024x1024_1_0⟩,
         ⟨S1024x1024, transpose S1024x1024 [1, 0] Wk transposes_S1024x1024_S1024x1024_1_0⟩,
         ⟨S1024x1024, transpose S1024x1024 [1, 0] Wv transposes_S1024x1024_S1024x1024_1_0⟩]
        concatenates_S1024x1024_S1024x1024_S1024x1024_S1024x3072_d1) bitsLt_bf16_f32 (ix2 k (AttnLayout.band 0 o))
      = Wq (ix2 o k) :=
  (truncf_apply (ψ := .bf16) _ bitsLt_bf16_f32 _).trans
    ((bands_apply _ _ _ _ k o).1.trans (transpose_sq_apply Wq _ k o))

/-- The packed weights at (k, o) of the key band: the key weight at (o, k). -/
theorem v5_apply_k (Wq Wk Wv : FVec Ideal S1024x1024 .f32) (k o : Fin 1024) :
    truncf .bf16 (concatenate S1024x3072 1
        [⟨S1024x1024, transpose S1024x1024 [1, 0] Wq transposes_S1024x1024_S1024x1024_1_0⟩,
         ⟨S1024x1024, transpose S1024x1024 [1, 0] Wk transposes_S1024x1024_S1024x1024_1_0⟩,
         ⟨S1024x1024, transpose S1024x1024 [1, 0] Wv transposes_S1024x1024_S1024x1024_1_0⟩]
        concatenates_S1024x1024_S1024x1024_S1024x1024_S1024x3072_d1) bitsLt_bf16_f32 (ix2 k (AttnLayout.band 1 o))
      = Wk (ix2 o k) :=
  (truncf_apply (ψ := .bf16) _ bitsLt_bf16_f32 _).trans
    ((bands_apply _ _ _ _ k o).2.1.trans (transpose_sq_apply Wk _ k o))

/-- The packed weights at (k, o) of the value band: the value weight at (o, k). -/
theorem v5_apply_v (Wq Wk Wv : FVec Ideal S1024x1024 .f32) (k o : Fin 1024) :
    truncf .bf16 (concatenate S1024x3072 1
        [⟨S1024x1024, transpose S1024x1024 [1, 0] Wq transposes_S1024x1024_S1024x1024_1_0⟩,
         ⟨S1024x1024, transpose S1024x1024 [1, 0] Wk transposes_S1024x1024_S1024x1024_1_0⟩,
         ⟨S1024x1024, transpose S1024x1024 [1, 0] Wv transposes_S1024x1024_S1024x1024_1_0⟩]
        concatenates_S1024x1024_S1024x1024_S1024x1024_S1024x3072_d1) bitsLt_bf16_f32 (ix2 k (AttnLayout.band 2 o))
      = Wv (ix2 o k) :=
  (truncf_apply (ψ := .bf16) _ bitsLt_bf16_f32 _).trans
    ((bands_apply _ _ _ _ k o).2.2.trans (transpose_sq_apply Wv _ k o))

/-- Three [1024] vectors end to end, at i·1024 + o: vector i at o. -/
theorem bands1_apply {α : Type} (A B C : S1024.Idx → α)
    (h : Shape.Concatenates [S1024, S1024, S1024] S3072 0) (o : Fin 1024) :
    concatenate S3072 0 [⟨S1024, A⟩, ⟨S1024, B⟩, ⟨S1024, C⟩] h (ix1 (AttnLayout.band 0 o)) = A (ix1 o)
    ∧ concatenate S3072 0 [⟨S1024, A⟩, ⟨S1024, B⟩, ⟨S1024, C⟩] h (ix1 (AttnLayout.band 1 o)) = B (ix1 o)
    ∧ concatenate S3072 0 [⟨S1024, A⟩, ⟨S1024, B⟩, ⟨S1024, C⟩] h (ix1 (AttnLayout.band 2 o)) = C (ix1 o) := by
  have hi : ∀ (i : Fin 3) (b : Fin 1), b.cast (rfl : S1024.rank = S3072.rank) ≠ (0 : Fin 1) →
      ((ix1 o : S1024.Idx) b).val = ((ix1 (AttnLayout.band i o) : S3072.Idx) (b.cast rfl)).val := fun i b => by
    match b with
    | ⟨0, _⟩ => exact fun hne => absurd rfl hne
  refine ⟨?_, ?_, ?_⟩
  · exact concatenate_apply_piece (t := S3072) (0 : Fin 1) [⟨S1024, A⟩, ⟨S1024, B⟩, ⟨S1024, C⟩] h (ix1 (AttnLayout.band 0 o)) 0 (by show 0 < 3; omega)
      S1024 A rfl rfl 0 rfl (ix1 o) (hi 0) (by show 0 + o.val = 0 * 1024 + o.val; omega)
  · exact concatenate_apply_piece (t := S3072) (0 : Fin 1) [⟨S1024, A⟩, ⟨S1024, B⟩, ⟨S1024, C⟩] h (ix1 (AttnLayout.band 1 o)) 1 (by show 1 < 3; omega)
      S1024 B rfl rfl 1024 rfl (ix1 o) (hi 1) (by show 1024 + o.val = 1 * 1024 + o.val; omega)
  · exact concatenate_apply_piece (t := S3072) (0 : Fin 1) [⟨S1024, A⟩, ⟨S1024, B⟩, ⟨S1024, C⟩] h (ix1 (AttnLayout.band 2 o)) 2 (by show 2 < 3; omega)
      S1024 C rfl rfl 2048 rfl (ix1 o) (hi 2) (by show 2048 + o.val = 2 * 1024 + o.val; omega)

/-- The packed bias row at (0, o) of the query band: the query bias at o. -/
theorem v7_apply_q (bq bk bv : FVec Ideal S1024 .f32) (o : Fin 1024) :
    shapeCast S1x3072 (concatenate S3072 0 [⟨S1024, bq⟩, ⟨S1024, bk⟩, ⟨S1024, bv⟩] concatenates_S1024_S1024_S1024_S3072_d0)
        shapeCasts_S3072_S1x3072 (ix2 (0 : Fin 1) (AttnLayout.band 0 o)) = bq (ix1 o) :=
  (RowVector.shapeCast_n_1n_apply _ _ 0 _).trans (bands1_apply _ _ _ _ o).1

/-- The packed bias row at (0, o) of the key band: the key bias at o. -/
theorem v7_apply_k (bq bk bv : FVec Ideal S1024 .f32) (o : Fin 1024) :
    shapeCast S1x3072 (concatenate S3072 0 [⟨S1024, bq⟩, ⟨S1024, bk⟩, ⟨S1024, bv⟩] concatenates_S1024_S1024_S1024_S3072_d0)
        shapeCasts_S3072_S1x3072 (ix2 (0 : Fin 1) (AttnLayout.band 1 o)) = bk (ix1 o) :=
  (RowVector.shapeCast_n_1n_apply _ _ 0 _).trans (bands1_apply _ _ _ _ o).2.1

/-- The packed bias row at (0, o) of the value band: the value bias at o. -/
theorem v7_apply_v (bq bk bv : FVec Ideal S1024 .f32) (o : Fin 1024) :
    shapeCast S1x3072 (concatenate S3072 0 [⟨S1024, bq⟩, ⟨S1024, bk⟩, ⟨S1024, bv⟩] concatenates_S1024_S1024_S1024_S3072_d0)
        shapeCasts_S3072_S1x3072 (ix2 (0 : Fin 1) (AttnLayout.band 2 o)) = bv (ix1 o) :=
  (RowVector.shapeCast_n_1n_apply _ _ 0 _).trans (bands1_apply _ _ _ _ o).2.2

end Cert.KernelIdeal.HostGlue

end
-- ==== Proof.HostEval.lean ====
/-
  What the host operations of the program leave in the buffers the three launches read, and in the result.

  The buffers' contents between the program's items are a fold through its operations; here each stretch of host
  operations is evaluated at the buffers that matter: the tokens as rows, the packed projection weights and the packed
  bias row before the first launch; the transposed output weight and its bias row before the last launch (the contexts
  left by the attention launch are not touched by that stretch); and the result, the last launch's rows split into
  batches.
-/
import proofs.«108430_j1005022347992_2_alg».proof.Proof.KernelIdealRun
import proofs.«108430_j1005022347992_2_alg».proof.Proof.HostGlue
import Idealize.ShloMosaic.Lib.StableHlo.Run

set_option maxRecDepth 16384

noncomputable section

namespace Cert.KernelIdeal.HostEval

open Idealize.ShloMosaic Idealize.ShloMosaic.ValueIdx Idealize.ShloMosaic.TcCoe Idealize.SL.Sem
open Cert.KernelIdeal Cert.KernelIdeal.Facts₀ Cert.KernelIdeal.Facts
open Idealize.ShloMosaic.StableHlo

variable (m : (ℓ : Loc nD τ sig) → Buf (Elt Ideal) ℓ) (ρ : Dev nD → PrngReg) (c : Dev nD)

/-- Before the first launch: the tokens as 4096 rows. -/
theorem W1_v0 :
    (Run.W1 m ρ c (Proc.devRef .tc main_v0) : FVec Ideal S4096x1024 .f32)
      = shapeCast S4096x1024 (m ((c : Thread nD τ).loc main_arg0) : FVec Ideal S2x2048x1024 .f32)
          shapeCasts_S2x2048x1024_S4096x1024 := by
  dsimp only [Run.W1, Run.W0, Gen.hostOps0]
  after_results
  rfl

/-- Before the first launch: the three projection weights, transposed, side by side, in the launch's format. -/
theorem W1_v5 :
    @Eq (FVec Ideal S1024x3072 .bf16) (Run.W1 m ρ c (Proc.devRef .tc main_v5))
      (truncf (F := Ideal) .bf16 (concatenate S1024x3072 1
          [⟨S1024x1024, transpose S1024x1024 [1, 0] (m ((c : Thread nD τ).loc main_arg1) : FVec Ideal S1024x1024 .f32) transposes_S1024x1024_S1024x1024_1_0⟩,
           ⟨S1024x1024, transpose S1024x1024 [1, 0] (m ((c : Thread nD τ).loc main_arg3) : FVec Ideal S1024x1024 .f32) transposes_S1024x1024_S1024x1024_1_0⟩,
           ⟨S1024x1024, transpose S1024x1024 [1, 0] (m ((c : Thread nD τ).loc main_arg5) : FVec Ideal S1024x1024 .f32) transposes_S1024x1024_S1024x1024_1_0⟩]
          concatenates_S1024x1024_S1024x1024_S1024x1024_S1024x3072_d1) bitsLt_bf16_f32) := by
  dsimp only [Run.W1, Run.W0, Gen.hostOps0]
  after_results
  rfl

/-- Before the first launch: the three projection biases end to end, as a row. -/
theorem W1_v7 :
    (Run.W1 m ρ c (Proc.devRef .tc main_v7) : FVec Ideal S1x3072 .f32)
      = shapeCast S1x3072 (concatenate S3072 0
          [⟨S1024, (m ((c : Thread nD τ).loc main_arg2) : FVec Ideal S1024 .f32)⟩,
           ⟨S1024, (m ((c : Thread nD τ).loc main_arg4) : FVec Ideal S1024 .f32)⟩,
           ⟨S1024, (m ((c : Thread nD τ).loc main_arg6) : FVec Ideal S1024 .f32)⟩]
          concatenates_S1024_S1024_S1024_S3072_d0) shapeCasts_S3072_S1x3072 := by
  dsimp only [Run.W1, Run.W0, Gen.hostOps0]
  after_results
  rfl

/-- Before the last launch: the output weight, transposed, in the launch's format. -/
theorem W4_v11 :
    @Eq (FVec Ideal S1024x1024 .bf16) (Run.W4 m ρ c (Proc.devRef .tc main_v11))
      (truncf (F := Ideal) .bf16 (transpose S1024x1024 [1, 0] (Run.W3 m ρ c (Proc.devRef .tc main_arg7) : FVec Ideal S1024x1024 .f32)
          transposes_S1024x1024_S1024x1024_1_0) bitsLt_bf16_f32) := by
  dsimp only [Run.W4, Gen.hostOps2]
  after_results

/-- Before the last launch: the output bias as a row. -/
theorem W4_v12 :
    (Run.W4 m ρ c (Proc.devRef .tc main_v12) : FVec Ideal S1x1024 .f32)
      = shapeCast S1x1024 (Run.W3 m ρ c (Proc.devRef .tc main_arg8) : FVec Ideal S1024 .f32) shapeCasts_S1024_S1x1024 := by
  dsimp only [Run.W4, Gen.hostOps2]
  after_results
  rfl

/-- The contexts the attention launch left are not written by the host operations before the last launch. -/
theorem W4_v9 : Run.W4 m ρ c (Proc.devRef .tc main_v9) = Run.W3 m ρ c (Proc.devRef .tc main_v9) := by
  dsimp only [Run.W4, Gen.hostOps2]
  after_results

/-- The result: the last launch's 4096 rows split into the two batches. -/
theorem W6_v14 :
    (Run.W6 m ρ c (Proc.devRef .tc main_v14) : FVec Ideal S2x2048x1024 .f32)
      = shapeCast S2x2048x1024 (Run.W5 m ρ c (Proc.devRef .tc main_v13) : FVec Ideal S4096x1024 .f32)
          shapeCasts_S4096x1024_S2x2048x1024 := by
  dsimp only [Run.W6, Gen.hostOps3]
  after_results
  rfl

end Cert.KernelIdeal.HostEval

end
-- ==== Proof.AttnSpec.lean ====
/-
  Multi-head self-attention over the extended reals, entry by entry.

  Sixteen heads of width 64 over 1024 features, 2048 tokens in each of 2 batches. A token's query, key and value are
  dense layers of its features, x·Wᵀ + b; head hd owns the columns hd·64 … hd·64+63. The score of query token s
  against key token j in a head is the inner product of the head's columns of the query and the key, times a scale c;
  a query's weights are the softmax of its row of scores (the row's maximum folded from an accumulator value bot);
  the head's context is the weighted sum of the values' columns; the output is a dense layer of the contexts. Every
  sum is a finite sum of the extended reals and nothing is assumed finite: the two programs compared against this
  function perform these same operations, arranged in different tilings and layouts.
-/
import Idealize.ShloMosaic.PureOps.Ideal
import Idealize.ShloMosaic.Lib.ValueIdx
import proofs.«108430_j1005022347992_2_alg».proof.Proof.LibRowSoftmax

noncomputable section

namespace AttnSpec

open Idealize.ShloMosaic

/-- Tokens as batch × position × feature; matrices as out × in; vectors by feature. -/
abbrev Tok : Type := Fin 2 → Fin 2048 → Fin 1024 → EReal
abbrev Mat : Type := Fin 1024 → Fin 1024 → EReal
abbrev Vct : Type := Fin 1024 → EReal

/-- A dense layer x·Wᵀ + b of every token. -/
def proj (x : Tok) (W : Mat) (b : Vct) : Tok := fun n s o => (∑ h : Fin 1024, x n s h * W o h) + b o

/-- Column d of head hd. -/
def col (hd : Fin 16) (d : Fin 64) : Fin 1024 := ⟨hd.val * 64 + d.val, by omega⟩

/-- The head and the column within the head of a feature. -/
def headOf (h : Fin 1024) : Fin 16 := ⟨h.val / 64, by omega⟩
def laneOf (h : Fin 1024) : Fin 64 := ⟨h.val % 64, by omega⟩

theorem col_head_lane (h : Fin 1024) : col (headOf h) (laneOf h) = h :=
  Fin.ext (by simp only [col, headOf, laneOf]; omega)

/-- The scaled score of query token s against key token j in head hd of batch n. -/
def score (c : EReal) (Q K : Tok) (n : Fin 2) (hd : Fin 16) (s j : Fin 2048) : EReal :=
  (∑ d : Fin 64, Q n s (col hd d) * K n j (col hd d)) * c

/-- The context of query token s in head hd at the head's column d: the values' column weighted by the query's softmax. -/
def ctxHead (c bot : EReal) (Q K V : Tok) (n : Fin 2) (hd : Fin 16) (s : Fin 2048) (d : Fin 64) : EReal :=
  ∑ j : Fin 2048, RowSoftmax.share bot (fun j' => score c Q K n hd s j') j * V n j (col hd d)

/-- The contexts laid out by feature. -/
def ctx (c bot : EReal) (Q K V : Tok) : Tok := fun n s h => ctxHead c bot Q K V n (headOf h) s (laneOf h)

/-- The whole block: projections, attention per head, output projection. -/
def attn (c bot : EReal) (x : Tok) (Wq : Mat) (bq : Vct) (Wk : Mat) (bk : Vct) (Wv : Mat) (bv : Vct) (Wo : Mat) (bo : Vct) : Tok :=
  proj (ctx c bot (proj x Wq bq) (proj x Wk bk) (proj x Wv bv)) Wo bo

end AttnSpec

end
-- ==== Proof.Compose.lean ====
/-
  The packed arrangement of the attention block computes the block of AttnSpec.

  A program may keep all tokens as the 4096 rows of one matrix, the three projections side by side as the 3072 columns
  of one product, the weights transposed, and the biases as one-row matrices. If the packed projection array is the
  dense layer of the packed operands, the context array is computed from it row by row as AttnLayout.ctxOf, and the
  output is the dense layer of the contexts, then the output at row n·2048 + s is the attention block at token (n, s):
  a band's column o of the packed projections is the corresponding projection's feature o, the rows of a row's batch
  are that batch's tokens, a head's columns in a band are the head's features, and the sums and the softmax agree term
  by term.
-/
import proofs.«108430_j1005022347992_2_alg».proof.Proof.AttnSpec
import proofs.«108430_j1005022347992_2_alg».proof.Proof.AttnLayout

noncomputable section

namespace AttnCompose

open Idealize.ShloMosaic Idealize.ShloMosaic.ValueIdx AttnLayout

/-- Row j of the batch of token (n, s)'s row is token (n, j)'s row. -/
theorem batchRow_row (n : Fin 2) (s j : Fin 2048) : batchRow (row n s) j = row n j :=
  Fin.ext (by have := n.isLt; have := s.isLt; simp only [batchRow, row]; omega)

/-- Column e of feature cc's head in band i is the band's column of the head's feature e. -/
theorem headCol_eq (i : Fin 3) (cc : Fin 1024) (e : Fin 64) :
    headCol i cc e = band i (AttnSpec.col (AttnSpec.headOf cc) e) :=
  Fin.ext (by simp only [headCol, band, AttnSpec.col, AttnSpec.headOf]; omega)

/-- A feature is the column, within its head, that its remainder names. -/
theorem band_col (i : Fin 3) (cc : Fin 1024) :
    band i cc = band i (AttnSpec.col (AttnSpec.headOf cc) (AttnSpec.laneOf cc)) := by
  rw [AttnSpec.col_head_lane]

/-- Band i of the packed projections at token (n, s)'s row is the dense layer whose weights and bias fill the band. -/
theorem packed_proj (x : AttnSpec.Tok) (W : AttnSpec.Mat) (b : AttnSpec.Vct)
    (X2 : (⟨2, ![4096, 1024]⟩ : Shape).Idx → EReal) (Wp : (⟨2, ![1024, 3072]⟩ : Shape).Idx → EReal)
    (Bp : (⟨2, ![1, 3072]⟩ : Shape).Idx → EReal) (P : (⟨2, ![4096, 3072]⟩ : Shape).Idx → EReal) (i : Fin 3)
    (hX : ∀ n s k, X2 (ix2 (row n s) k) = x n s k)
    (hW : ∀ k o, Wp (ix2 k (band i o)) = W o k) (hb : ∀ o, Bp (ix2 (0 : Fin 1) (band i o)) = b o)
    (hP : ∀ (r : Fin 4096) (cc : Fin 3072), P (ix2 r cc) = (∑ k : Fin 1024, X2 (ix2 r k) * Wp (ix2 k cc)) + Bp (ix2 (0 : Fin 1) cc))
    (n : Fin 2) (s : Fin 2048) (o : Fin 1024) :
    P (ix2 (row n s) (band i o)) = AttnSpec.proj x W b n s o := by
  rw [hP, hb]
  unfold AttnSpec.proj
  refine congrArg (· + b o) (Finset.sum_congr rfl fun k _ => ?_)
  rw [hX, hW]

/-- A context entry computed from packed projections whose bands are Q, K and V is the context of AttnSpec. -/
theorem ctxOf_row (c bot : EReal) (P : (⟨2, ![4096, 3072]⟩ : Shape).Idx → EReal) (Q K V : AttnSpec.Tok)
    (hQ : ∀ n s o, P (ix2 (row n s) (band 0 o)) = Q n s o)
    (hK : ∀ n s o, P (ix2 (row n s) (band 1 o)) = K n s o)
    (hV : ∀ n s o, P (ix2 (row n s) (band 2 o)) = V n s o)
    (n : Fin 2) (s : Fin 2048) (cc : Fin 1024) :
    ctxOf c bot P (row n s) cc = AttnSpec.ctx c bot Q K V n s cc := by
  have hs : (fun j' : Fin 2048 => (∑ e : Fin 64, P (ix2 (row n s) (headCol 0 cc e))
        * P (ix2 (batchRow (row n s) j') (headCol 1 cc e))) * c)
      = fun j' => AttnSpec.score c Q K n (AttnSpec.headOf cc) s j' := funext fun j' => by
    unfold AttnSpec.score
    refine congrArg (· * c) (Finset.sum_congr rfl fun e _ => ?_)
    rw [batchRow_row, headCol_eq, headCol_eq, hQ, hK]
  unfold ctxOf
  rw [hs]
  show _ = ∑ j : Fin 2048, RowSoftmax.share bot (fun j' => AttnSpec.score c Q K n (AttnSpec.headOf cc) s j') j
      * V n j (AttnSpec.col (AttnSpec.headOf cc) (AttnSpec.laneOf cc))
  refine Finset.sum_congr rfl fun j _ => ?_
  rw [batchRow_row, band_col 2 cc, hV]

/-- THE PACKED ARRANGEMENT computes the attention block. -/
theorem compose (c bot : EReal) (x : AttnSpec.Tok) (Wq : AttnSpec.Mat) (bq : AttnSpec.Vct) (Wk : AttnSpec.Mat) (bk : AttnSpec.Vct) (Wv : AttnSpec.Mat) (bv : AttnSpec.Vct) (Wo : AttnSpec.Mat) (bo : AttnSpec.Vct)
    (X2 : (⟨2, ![4096, 1024]⟩ : Shape).Idx → EReal) (Wp : (⟨2, ![1024, 3072]⟩ : Shape).Idx → EReal) (Bp : (⟨2, ![1, 3072]⟩ : Shape).Idx → EReal)
    (P : (⟨2, ![4096, 3072]⟩ : Shape).Idx → EReal) (C : (⟨2, ![4096, 1024]⟩ : Shape).Idx → EReal)
    (Wt : (⟨2, ![1024, 1024]⟩ : Shape).Idx → EReal) (Bo : (⟨2, ![1, 1024]⟩ : Shape).Idx → EReal) (O : (⟨2, ![4096, 1024]⟩ : Shape).Idx → EReal)
    (hX : ∀ n s k, X2 (ix2 (row n s) k) = x n s k)
    (hWq : ∀ k o, Wp (ix2 k (band 0 o)) = Wq o k) (hWk : ∀ k o, Wp (ix2 k (band 1 o)) = Wk o k) (hWv : ∀ k o, Wp (ix2 k (band 2 o)) = Wv o k)
    (hbq : ∀ o, Bp (ix2 (0 : Fin 1) (band 0 o)) = bq o) (hbk : ∀ o, Bp (ix2 (0 : Fin 1) (band 1 o)) = bk o) (hbv : ∀ o, Bp (ix2 (0 : Fin 1) (band 2 o)) = bv o)
    (hP : ∀ (r : Fin 4096) (cc : Fin 3072), P (ix2 r cc) = (∑ k : Fin 1024, X2 (ix2 r k) * Wp (ix2 k cc)) + Bp (ix2 (0 : Fin 1) cc))
    (hC : ∀ (r : Fin 4096) (cc : Fin 1024), C (ix2 r cc) = ctxOf c bot P r cc)
    (hWt : ∀ k o, Wt (ix2 k o) = Wo o k) (hBo : ∀ o, Bo (ix2 (0 : Fin 1) o) = bo o)
    (hO : ∀ (r : Fin 4096) (o : Fin 1024), O (ix2 r o) = (∑ k : Fin 1024, C (ix2 r k) * Wt (ix2 k o)) + Bo (ix2 (0 : Fin 1) o)) :
    ∀ n s o, O (ix2 (row n s) o) = AttnSpec.attn c bot x Wq bq Wk bk Wv bv Wo bo n s o := by
  intro n s o
  have hQ := packed_proj x Wq bq X2 Wp Bp P 0 hX hWq hbq hP
  have hK := packed_proj x Wk bk X2 Wp Bp P 1 hX hWk hbk hP
  have hV := packed_proj x Wv bv X2 Wp Bp P 2 hX hWv hbv hP
  rw [hO, hBo]
  show _ = (∑ k : Fin 1024, AttnSpec.ctx c bot (AttnSpec.proj x Wq bq) (AttnSpec.proj x Wk bk) (AttnSpec.proj x Wv bv) n s k * Wo o k) + bo o
  refine congrArg (· + bo o) (Finset.sum_congr rfl fun k _ => ?_)
  rw [hC, hWt, ctxOf_row c bot P _ _ _ hQ hK hV]

end AttnCompose

end
-- ==== Proof.KernelIdealResult.lean ====
/-
  The kernel's result as the attention block of its arguments.

  Through the fold of the buffers' contents: the first host stretch lays the tokens out as 4096 rows and packs the three
  projections' transposed weights and biases; the first launch leaves the packed projections (PackedProjections), the
  second the contexts computed from them (ContextArray), the third, after the output weights are transposed, the
  output rows (OutputArray); the last host operation splits the rows back into batches. Composed (AttnCompose.compose),
  the result at token (n, s), feature o is AttnSpec.attn of the nine arguments there.
-/
import proofs.«108430_j1005022347992_2_alg».proof.Proof.PackedProjections
import proofs.«108430_j1005022347992_2_alg».proof.Proof.ContextArray
import proofs.«108430_j1005022347992_2_alg».proof.Proof.OutputArray
import proofs.«108430_j1005022347992_2_alg».proof.Proof.HostGlue
import proofs.«108430_j1005022347992_2_alg».proof.Proof.HostEval
import proofs.«108430_j1005022347992_2_alg».proof.Proof.Compose
import proofs.«108430_j1005022347992_2_alg».proof.Proof.KernelIdealFrame

noncomputable section

namespace Cert.KernelIdeal.Result

open Cert.KernelIdeal Cert.KernelIdeal.Gen Cert.KernelIdeal.Run Cert.KernelIdeal.Arrays
open Idealize.ShloMosaic Idealize.ShloMosaic.TcCoe Idealize.ShloMosaic.ValueIdx Idealize.SL.Sem AttnLayout

variable (m : (ℓ : Loc nD τ sig) → Buf (Elt Ideal) ℓ) (ρ : Dev nD → PrngReg) (c : Dev nD)

/-- Up to the second host stretch a buffer that the first stretch does not write and that is no array of the first two
    launches' outputs keeps its launch contents. -/
theorem W3_kept (a : Ref sig .tc) (h0 : a ∉ hostOps0_W) (hn0 : ∀ w, Pipeline.arrRef spec0 w ≠ a) (hn1 : a ≠ main_v9) :
    W3 m ρ c (Proc.devRef .tc a) = m ((c : Thread nD τ).loc a) :=
  (W3_of_ne m ρ c a hn1).trans ((W2_of_ne m ρ c a hn0).trans
    ((StableHlo.after_of_writes_sub hostOps0 _ hostOps0_writes h0).trans rfl))

/-- The packed projections as the second launch finds them. -/
theorem packed_eq : Run.V2 m ρ c main_v8 = packed (Run.V1 m ρ c main_v0) (Run.V1 m ρ c main_v5) (Run.V1 m ρ c main_v7) :=
  (W2_arr m ρ c 3).trans (final0 (Run.V1 m ρ) c)

/-- The contexts as the third launch finds them. -/
theorem contexts_eq : Run.V4 m ρ c main_v9 = contexts (Run.V2 m ρ c main_v8) :=
  (HostEval.W4_v9 m ρ c).trans ((W3_v9 m ρ c).trans (final1 (Run.V2 m ρ) c))

/-- The output rows after the third launch. -/
theorem output_eq : W5 m ρ c (Proc.devRef .tc main_v13)
    = projected (Run.V4 m ρ c main_v9) (Run.V4 m ρ c main_v11) (Run.V4 m ρ c main_v12) :=
  (W5_arr m ρ c 3).trans (final2 (Run.V4 m ρ) c)

/-- THE RESULT, entry by entry. -/
theorem result_eq (n : Fin 2) (s : Fin 2048) (o : Fin 1024) :
    W6 m ρ c (Proc.devRef .tc main_v14) (ix3 n s o)
      = AttnSpec.attn (Ideal.ofBits .f32 0x3E000000#32) (Ideal.ofBits .f32 0xFF800000#32)
          (fun n s h => m ((c : Thread nD τ).loc main_arg0) (ix3 n s h)) (fun o h => m ((c : Thread nD τ).loc main_arg1) (ix2 o h)) (fun o => m ((c : Thread nD τ).loc main_arg2) (ix1 o))
          (fun o h => m ((c : Thread nD τ).loc main_arg3) (ix2 o h)) (fun o => m ((c : Thread nD τ).loc main_arg4) (ix1 o)) (fun o h => m ((c : Thread nD τ).loc main_arg5) (ix2 o h)) (fun o => m ((c : Thread nD τ).loc main_arg6) (ix1 o))
          (fun o h => m ((c : Thread nD τ).loc main_arg7) (ix2 o h)) (fun o => m ((c : Thread nD τ).loc main_arg8) (ix1 o)) n s o := by
  rw [HostEval.W6_v14 m ρ c, HostGlue.v14_apply]
  refine AttnCompose.compose _ _ _ _ _ _ _ _ _ _ _
    (Run.V1 m ρ c main_v0) (Run.V1 m ρ c main_v5) (Run.V1 m ρ c main_v7) (Run.V2 m ρ c main_v8) (Run.V4 m ρ c main_v9)
    (Run.V4 m ρ c main_v11) (Run.V4 m ρ c main_v12) (W5 m ρ c (Proc.devRef .tc main_v13))
    (fun n s k => ?_) (fun k o => ?_) (fun k o => ?_) (fun k o => ?_) (fun o => ?_) (fun o => ?_) (fun o => ?_)
    (fun r cc => ?_) (fun r cc => ?_) (fun k o => ?_) (fun o => ?_) (fun r o => ?_) n s o
  · show W1 m ρ c (Proc.devRef .tc main_v0) (ix2 (row n s) k) = _
    rw [HostEval.W1_v0 m ρ c]; exact HostGlue.v0_apply _ n s k
  · show W1 m ρ c (Proc.devRef .tc main_v5) (ix2 k (band 0 o)) = _
    rw [HostEval.W1_v5 m ρ c]; exact HostGlue.v5_apply_q _ _ _ k o
  · show W1 m ρ c (Proc.devRef .tc main_v5) (ix2 k (band 1 o)) = _
    rw [HostEval.W1_v5 m ρ c]; exact HostGlue.v5_apply_k _ _ _ k o
  · show W1 m ρ c (Proc.devRef .tc main_v5) (ix2 k (band 2 o)) = _
    rw [HostEval.W1_v5 m ρ c]; exact HostGlue.v5_apply_v _ _ _ k o
  · show W1 m ρ c (Proc.devRef .tc main_v7) (ix2 (0 : Fin 1) (band 0 o)) = _
    rw [HostEval.W1_v7 m ρ c]; exact HostGlue.v7_apply_q _ _ _ o
  · show W1 m ρ c (Proc.devRef .tc main_v7) (ix2 (0 : Fin 1) (band 1 o)) = _
    rw [HostEval.W1_v7 m ρ c]; exact HostGlue.v7_apply_k _ _ _ o
  · show W1 m ρ c (Proc.devRef .tc main_v7) (ix2 (0 : Fin 1) (band 2 o)) = _
    rw [HostEval.W1_v7 m ρ c]; exact HostGlue.v7_apply_v _ _ _ o
  · rw [packed_eq m ρ c]; rfl
  · rw [contexts_eq m ρ c]; rfl
  · show W4 m ρ c (Proc.devRef .tc main_v11) (ix2 k o) = _
    rw [HostEval.W4_v11 m ρ c, HostGlue.v11_apply, W3_kept m ρ c main_arg7 (by decide) (by decide) (by decide)]
  · show W4 m ρ c (Proc.devRef .tc main_v12) (ix2 (0 : Fin 1) o) = _
    rw [HostEval.W4_v12 m ρ c, HostGlue.v12_apply, W3_kept m ρ c main_arg8 (by decide) (by decide) (by decide)]
  · rw [output_eq m ρ c]; rfl

end Cert.KernelIdeal.Result

end
-- ==== Proof.RefValue.lean ====
/-
  The reference program read entry by entry: its result is the multi-head attention block of AttnSpec.

  The reference computes the three projections as dense layers, splits the 1024 features of each into 16 heads of
  width 64 by a reshape and a transpose, takes per head the scaled inner products of queries and keys, a softmax over
  the keys (row maximum, shifted exponential, row sum, quotient), the weighted sum of the values, undoes the head
  split and applies the output layer. Each stage is read at an index from the generated reading of its operation; the
  index maps of the layout operations are compared coordinate by coordinate, the flattened positions by linear
  arithmetic over the literal extents.
-/
import proofs.«108430_j1005022347992_2_alg».proof.Proof.Gen.ReferenceIdeal.Read
import proofs.«108430_j1005022347992_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx

/-- The contents of a token array, a weight matrix and a bias vector at the extended reals. -/
abbrev A3 : Type := (⟨S2x2048x1024, .f32⟩ : BufTy).Contents (Elt Ideal)
abbrev M2 : Type := (⟨S1024x1024, .f32⟩ : BufTy).Contents (Elt Ideal)
abbrev V1 : Type := (⟨S1024, .f32⟩ : BufTy).Contents (Elt Ideal)

/-- An array of tokens, a weight matrix and a bias vector by their coordinates. -/
abbrev tok (x : A3) : AttnSpec.Tok := fun n s h => x (ix3 n s h)
abbrev mat (w : M2) : AttnSpec.Mat := fun o h => w (ix2 o h)
abbrev vct (b : V1) : AttnSpec.Vct := fun o => b (ix1 o)

/-- The scale 1/8 and the accumulator value −∞ of the row maximum, as the program's words denote them. -/
abbrev cS : EReal := Ideal.ofBits .f32 0x3E000000#32
abbrev cB : EReal := Ideal.ofBits .f32 0xFF800000#32

/-! ## The projections -/

/-- A dense layer of the reference at (n, s, o): the sum over the features plus the bias. -/
theorem proj_apply (x : A3) (w : M2) (b : V1) (n : Fin 2) (s : Fin 2048) (o : Fin 1024) :
    val_main_v3 (F := Ideal) x w b (ix3 n s o) = AttnSpec.proj (tok x) (mat w) (vct b) n s o := by
  rw [val_main_v3_apply, val_main_v0_apply, val_main_v2_apply, val_main_v1_apply]
  have hl : ∀ k : Fin 1024, lidx_main_v0 (ix3 n s o) k = ix3 n s k := fun k => funext fun a =>
    match a with | ⟨0, _⟩ => rfl | ⟨1, _⟩ => rfl | ⟨2, _⟩ => rfl
  have hr : ∀ k : Fin 1024, ridx_main_v0 (ix3 n s o) k = ix2 o k := fun k => funext fun a =>
    match a with | ⟨0, _⟩ => rfl | ⟨1, _⟩ => rfl
  have hb : idx_main_v1 (idx_main_v2 (ix3 n s o)) = ix1 o := funext fun a =>
    match a with | ⟨0, _⟩ => rfl
  rw [hb]
  show (∑ k : Fin 1024, x (lidx_main_v0 (ix3 n s o) k) * w (ridx_main_v0 (ix3 n s o) k)) + b (ix1 o) = _
  unfold AttnSpec.proj
  exact congrArg (· + b (ix1 o)) (Finset.sum_congr rfl fun k _ => by rw [hl k, hr k])

/-- After the split into heads and the transpose, head hd's column d of token s is feature hd·64 + d of the layer. -/
theorem head_apply (x : A3) (w : M2) (b : V1) (n : Fin 2) (hd : Fin 16) (s : Fin 2048) (d : Fin 64) :
    val_main_v5 (F := Ideal) x w b (ix4 n hd s d) = AttnSpec.proj (tok x) (mat w) (vct b) n s (AttnSpec.col hd d) := by
  rw [val_main_v5_apply, val_main_v4_apply]
  have hi : idx_main_v4 (idx_main_v5 (ix4 n hd s d)) = ix3 n s (AttnSpec.col hd d) := funext fun a => Fin.ext (by
    have h0 := n.isLt; have h1 := hd.isLt; have h2 := s.isLt; have h3 := d.isLt
    match a with
    | ⟨0, _⟩ => show (((n.val * 2048 + s.val) * 16 + hd.val) * 64 + d.val) / 2097152 = n.val; omega
    | ⟨1, _⟩ => show (((n.val * 2048 + s.val) * 16 + hd.val) * 64 + d.val) / 1024 % 2048 = s.val; omega
    | ⟨2, _⟩ => show (((n.val * 2048 + s.val) * 16 + hd.val) * 64 + d.val) % 1024 = hd.val * 64 + d.val; omega)
  rw [hi]
  exact proj_apply x w b n s (AttnSpec.col hd d)

/-- The key and value projections are the query's program at other arguments. -/
theorem v11_eq (x : A3) (w : M2) (b : V1) : val_main_v11 (F := Ideal) x w b = val_main_v5 (F := Ideal) x w b := rfl
theorem v17_eq (x : A3) (w : M2) (b : V1) : val_main_v17 (F := Ideal) x w b = val_main_v5 (F := Ideal) x w b := rfl

section Attention

variable (x0 : A3) (x1 : M2) (x2 : V1) (x3 : M2) (x4 : V1) (x5 : M2) (x6 : V1) (x7 : M2) (x8 : V1)

local notation "Q" => AttnSpec.proj (tok x0) (mat x1) (vct x2)
local notation "K" => AttnSpec.proj (tok x0) (mat x3) (vct x4)
local notation "V" => AttnSpec.proj (tok x0) (mat x5) (vct x6)

/-! ## The scores -/

/-- The scaled inner product of head hd's columns of query token s and key token j. -/
theorem score_apply (n : Fin 2) (hd : Fin 16) (s j : Fin 2048) :
    val_main_v20 (F := Ideal) x0 x1 x2 x3 x4 (ix4 n hd s j) = AttnSpec.score cS Q K n hd s j := by
  rw [val_main_v20_apply, val_main_v18_apply, val_main_v19_apply, val_main_cst_apply]
  have hl : ∀ k : Fin 64, lidx_main_v18 (ix4 n hd s j) k = ix4 n hd s k := fun k => funext fun a =>
    match a with | ⟨0, _⟩ => rfl | ⟨1, _⟩ => rfl | ⟨2, _⟩ => rfl | ⟨3, _⟩ => rfl
  have hr : ∀ k : Fin 64, ridx_main_v18 (ix4 n hd s j) k = ix4 n hd j k := fun k => funext fun a =>
    match a with | ⟨0, _⟩ => rfl | ⟨1, _⟩ => rfl | ⟨2, _⟩ => rfl | ⟨3, _⟩ => rfl
  show (∑ k : Fin 64, val_main_v5 (F := Ideal) x0 x1 x2 (lidx_main_v18 (ix4 n hd s j) k)
      * val_main_v11 (F := Ideal) x0 x3 x4 (ridx_main_v18 (ix4 n hd s j) k)) * cS = _
  unfold AttnSpec.score
  refine congrArg (· * cS) (Finset.sum_congr rfl fun k _ => ?_)
  rw [hl k, hr k, v11_eq, head_apply, head_apply]

/-! ## The softmax over the keys -/

/-- The row maximum: the fold of max from −∞ over the keys; one more maximum with −∞ changes nothing. -/
theorem rowmax_apply (n : Fin 2) (hd : Fin 16) (s : Fin 2048) :
    val_main_v23 (F := Ideal) x0 x1 x2 x3 x4 (ix3 n hd s)
      = RowSoftmax.rowMax cB (fun j => AttnSpec.score cS Q K n hd s j) := by
  have hred : S2x16x2048x2048.Reduces [3] S2x16x2048 := by decide
  have h21 : val_main_v21 (F := Ideal) x0 x1 x2 x3 x4 (ix3 n hd s)
      = RowSoftmax.rowMax cB (fun j => AttnSpec.score cS Q K n hd s j) := by
    unfold val_main_v21
    refine (Host.reduce_eq_fold_single FloatOps.maximumf _ _ reducesTo_S2x16x2048x2048_S2x16x2048_d3 hred h_S_ (ix3 n hd s)).trans ?_
    show (Finset.univ : Finset (Fin 2048)).fold max cB
        (fun k => val_main_v20 (F := Ideal) x0 x1 x2 x3 x4 (hred.lift (ix3 n hd s) k)) = _
    unfold RowSoftmax.rowMax
    refine congrArg (fun f => (Finset.univ : Finset (Fin 2048)).fold max cB f) (funext fun k => ?_)
    have hk : hred.lift (ix3 n hd s) k = ix4 n hd s k := funext fun c => Fin.ext (by
      match c with | ⟨0, _⟩ => rfl | ⟨1, _⟩ => rfl | ⟨2, _⟩ => rfl | ⟨3, _⟩ => rfl)
    rw [hk]
    exact score_apply x0 x1 x2 x3 x4 n hd s k
  rw [val_main_v23_apply, h21, val_main_v22_apply, val_main_cst_1_apply]
  exact RowSoftmax.max_rowMax cB _

/-- The shifted exponential of a score. -/
theorem exp_apply (n : Fin 2) (hd : Fin 16) (s j : Fin 2048) :
    val_main_v27 (F := Ideal) x0 x1 x2 x3 x4 (ix4 n hd s j)
      = Ideal.exp (AttnSpec.score cS Q K n hd s j - RowSoftmax.rowMax cB (fun j' => AttnSpec.score cS Q K n hd s j')) := by
  rw [val_main_v27_apply, val_main_v26_apply, val_main_v25_apply, val_main_v24_apply]
  have hi : idx_main_v24 (idx_main_v25 (ix4 n hd s j)) = ix3 n hd s := funext fun a =>
    match a with | ⟨0, _⟩ => rfl | ⟨1, _⟩ => rfl | ⟨2, _⟩ => rfl
  rw [hi, rowmax_apply, score_apply]
  rfl

/-- The row's sum of shifted exponentials, from the zero initial value. -/
theorem expsum_apply (n : Fin 2) (hd : Fin 16) (s : Fin 2048) :
    val_main_v28 (F := Ideal) x0 x1 x2 x3 x4 (ix3 n hd s)
      = ∑ k : Fin 2048, Ideal.exp (AttnSpec.score cS Q K n hd s k - RowSoftmax.rowMax cB (fun j' => AttnSpec.score cS Q K n hd s j')) := by
  rw [val_main_v28_apply, val_main_cst_2_apply]
  show Ideal.ofBits .f32 0x00000000#32 + _ = _
  rw [Ideal.ofBits_zero_f32, zero_add]
  refine Finset.sum_congr rfl fun k _ => ?_
  have hk : idx_main_v28 (ix3 n hd s) k = ix4 n hd s k := funext fun a =>
    match a with | ⟨0, _⟩ => rfl | ⟨1, _⟩ => rfl | ⟨2, _⟩ => rfl | ⟨3, _⟩ => rfl
  rw [hk]
  exact exp_apply x0 x1 x2 x3 x4 n hd s k

/-- The softmax weight of key j for query s. -/
theorem share_apply (n : Fin 2) (hd : Fin 16) (s j : Fin 2048) :
    val_main_v31 (F := Ideal) x0 x1 x2 x3 x4 (ix4 n hd s j)
      = RowSoftmax.share cB (fun j' => AttnSpec.score cS Q K n hd s j') j := by
  rw [val_main_v31_apply, val_main_v30_apply, val_main_v29_apply]
  have hi : idx_main_v29 (idx_main_v30 (ix4 n hd s j)) = ix3 n hd s := funext fun a =>
    match a with | ⟨0, _⟩ => rfl | ⟨1, _⟩ => rfl | ⟨2, _⟩ => rfl
  rw [hi, expsum_apply, exp_apply]
  rfl

/-! ## The contexts -/

/-- The weighted sum of head hd's value columns. -/
theorem ctxHead_apply (n : Fin 2) (hd : Fin 16) (s : Fin 2048) (d : Fin 64) :
    val_main_v32 (F := Ideal) x0 x1 x2 x3 x4 x5 x6 (ix4 n hd s d) = AttnSpec.ctxHead cS cB Q K V n hd s d := by
  rw [val_main_v32_apply]
  unfold AttnSpec.ctxHead
  refine Finset.sum_congr rfl fun k _ => ?_
  have hl : lidx_main_v32 (ix4 n hd s d) k = ix4 n hd s k := funext fun a =>
    match a with | ⟨0, _⟩ => rfl | ⟨1, _⟩ => rfl | ⟨2, _⟩ => rfl | ⟨3, _⟩ => rfl
  have hr : ridx_main_v32 (ix4 n hd s d) k = ix4 n hd k d := funext fun a =>
    match a with | ⟨0, _⟩ => rfl | ⟨1, _⟩ => rfl | ⟨2, _⟩ => rfl | ⟨3, _⟩ => rfl
  rw [hl, hr, share_apply, v17_eq, head_apply]

/-- The heads put back side by side: feature h is column h mod 64 of head h div 64. -/
theorem ctx_apply (n : Fin 2) (s : Fin 2048) (h : Fin 1024) :
    val_main_v34 (F := Ideal) x0 x1 x2 x3 x4 x5 x6 (ix3 n s h) = AttnSpec.ctx cS cB Q K V n s h := by
  rw [val_main_v34_apply, val_main_v33_apply]
  have hi : idx_main_v33 (idx_main_v34 (ix3 n s h)) = ix4 n (AttnSpec.headOf h) s (AttnSpec.laneOf h) :=
    funext fun a => Fin.ext (by
      have h0 := n.isLt; have h1 := s.isLt; have h2 := h.isLt
      match a with
      | ⟨0, _⟩ => show ((n.val * 2048 + s.val) * 1024 + h.val) / 2097152 = n.val; omega
      | ⟨1, _⟩ => show ((n.val * 2048 + s.val) * 1024 + h.val) / 64 % 16 = h.val / 64; omega
      | ⟨2, _⟩ => show ((n.val * 2048 + s.val) * 1024 + h.val) / 1024 % 2048 = s.val; omega
      | ⟨3, _⟩ => show ((n.val * 2048 + s.val) * 1024 + h.val) % 64 = h.val % 64; omega)
  rw [hi]
  exact ctxHead_apply x0 x1 x2 x3 x4 x5 x6 n (AttnSpec.headOf h) s (AttnSpec.laneOf h)

/-! ## The output layer -/

theorem out_apply (n : Fin 2) (s : Fin 2048) (o : Fin 1024) :
    val_main_v38 (F := Ideal) x0 x1 x2 x3 x4 x5 x6 x7 x8 (ix3 n s o)
      = AttnSpec.attn cS cB (tok x0) (mat x1) (vct x2) (mat x3) (vct x4) (mat x5) (vct x6) (mat x7) (vct x8) n s o := by
  rw [val_main_v38_apply, val_main_v35_apply, val_main_v37_apply, val_main_v36_apply]
  have hl : ∀ k : Fin 1024, lidx_main_v35 (ix3 n s o) k = ix3 n s k := fun k => funext fun a =>
    match a with | ⟨0, _⟩ => rfl | ⟨1, _⟩ => rfl | ⟨2, _⟩ => rfl
  have hr : ∀ k : Fin 1024, ridx_main_v35 (ix3 n s o) k = ix2 o k := fun k => funext fun a =>
    match a with | ⟨0, _⟩ => rfl | ⟨1, _⟩ => rfl
  have hb : idx_main_v36 (idx_main_v37 (ix3 n s o)) = ix1 o := funext fun a =>
    match a with | ⟨0, _⟩ => rfl
  rw [hb]
  show (∑ k : Fin 1024, val_main_v34 (F := Ideal) x0 x1 x2 x3 x4 x5 x6 (lidx_main_v35 (ix3 n s o) k) * x7 (ridx_main_v35 (ix3 n s o) k))
      + x8 (ix1 o) = (∑ k : Fin 1024, AttnSpec.ctx cS cB Q K V n s k * x7 (ix2 o k)) + x8 (ix1 o)
  refine congrArg (· + x8 (ix1 o)) (Finset.sum_congr rfl fun k _ => ?_)
  rw [hl k, hr k, ctx_apply]

end Attention

/-- THE REFERENCE'S RESULT at (n, s, o) is the attention block of the specification at the program's arguments. -/
theorem ref_eq (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (n : Fin 2) (s : Fin 2048) (o : Fin 1024) :
    Cert.ReferenceIdeal.Read.val_main_v38 (F := Ideal) x0 x1 x2 x3 x4 x5 x6 x7 x8 (ValueIdx.ix3 n s o)
      = AttnSpec.attn (Ideal.ofBits .f32 0x3E000000#32) (Ideal.ofBits .f32 0xFF800000#32)
          (fun n s h => x0 (ValueIdx.ix3 n s h)) (fun o h => x1 (ValueIdx.ix2 o h)) (fun o => x2 (ValueIdx.ix1 o))
          (fun o h => x3 (ValueIdx.ix2 o h)) (fun o => x4 (ValueIdx.ix1 o)) (fun o h => x5 (ValueIdx.ix2 o h)) (fun o => x6 (ValueIdx.ix1 o))
          (fun o h => x7 (ValueIdx.ix2 o h)) (fun o => x8 (ValueIdx.ix1 o)) n s o :=
  out_apply x0 x1 x2 x3 x4 x5 x6 x7 x8 n s o

end Cert.ReferenceIdeal.RefValue

end
-- ==== Proof.lean ====
/-
  Multi-head self-attention as three launches — a fused query/key/value projection, full-softmax attention read
  straight off the packed projections (two heads per 128-column band), and the output projection — against the plain
  einsum formulation. On the extended reals both compute the same function of the nine arguments, entry by entry
  (AttnSpec.attn): a change of float format is the identity, a product into a zero accumulator is the plain sum, the two
  softmaxes are the same operations in the same order, and the tilings and layouts only re-index. No algebraic law
  beyond re-indexing joins the two sides, so the inputs' finiteness is never used.

  The programs' frames: each of the kernel's two printings runs as host operations, three launches and host operations
  again (KernelRun / KernelIdealRun: the launches' bodies executed symbolically, the attention launch's three input
  windows sharing one array), its arguments untouched; the reference is a line of host operations.
-/
import proofs.«108430_j1005022347992_2_alg».proof.Defs
import proofs.«108430_j1005022347992_2_alg».proof.Proof.Gen.Kernel
import proofs.«108430_j1005022347992_2_alg».proof.Proof.Gen.KernelIdeal
import proofs.«108430_j1005022347992_2_alg».proof.Proof.Gen.ReferenceIdeal
import proofs.«108430_j1005022347992_2_alg».proof.Proof.Gen.Pre_finite_inputs
import proofs.«108430_j1005022347992_2_alg».proof.Proof.Gen.ReferenceIdeal.Run
import proofs.«108430_j1005022347992_2_alg».proof.Proof.KernelFrame
import proofs.«108430_j1005022347992_2_alg».proof.Proof.KernelIdealFrame
import proofs.«108430_j1005022347992_2_alg».proof.Proof.KernelIdealResult
import proofs.«108430_j1005022347992_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

namespace Claims

theorem frame_p : Cert.frame_Kernel := fun m ρ _ => Cert.Kernel.Run.frame m ρ
theorem frame_pi : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both programs end with the result array at AttnSpec.attn of the arguments: the kernel's through its three launches'
    arrays (Result.result_eq), the reference's through its host operations (RefValue.ref_eq). -/
theorem algebraic : Cert.algebraic_KernelIdeal_ReferenceIdeal := by
  intro m ρ m' ρ' _ hagree
  refine ⟨fun c => Cert.KernelIdeal.Run.W6 m ρ c (Proc.devRef .tc Cert.KernelIdeal.main_v14), ?_, ?_⟩
  · exact (θ_run Cert.KernelIdeal.defs _ _).mono (fun r h c =>
      ⟨h c _ (Cert.KernelIdeal.Run.mem_uc Cert.KernelIdeal.main_v14 (by decide)),
        (h c _ (Cert.KernelIdeal.Run.mem_uc Cert.KernelIdeal.main_arg0 (by decide))).trans (Cert.KernelIdeal.Run.W6_kept m ρ c Cert.KernelIdeal.main_arg0 (by decide) (by decide) (by decide) (by decide) (by decide) (by decide)),
        (h c _ (Cert.KernelIdeal.Run.mem_uc Cert.KernelIdeal.main_arg1 (by decide))).trans (Cert.KernelIdeal.Run.W6_kept m ρ c Cert.KernelIdeal.main_arg1 (by decide) (by decide) (by decide) (by decide) (by decide) (by decide)),
        (h c _ (Cert.KernelIdeal.Run.mem_uc Cert.KernelIdeal.main_arg2 (by decide))).trans (Cert.KernelIdeal.Run.W6_kept m ρ c Cert.KernelIdeal.main_arg2 (by decide) (by decide) (by decide) (by decide) (by decide) (by decide)),
        (h c _ (Cert.KernelIdeal.Run.mem_uc Cert.KernelIdeal.main_arg3 (by decide))).trans (Cert.KernelIdeal.Run.W6_kept m ρ c Cert.KernelIdeal.main_arg3 (by decide) (by decide) (by decide) (by decide) (by decide) (by decide)),
        (h c _ (Cert.KernelIdeal.Run.mem_uc Cert.KernelIdeal.main_arg4 (by decide))).trans (Cert.KernelIdeal.Run.W6_kept m ρ c Cert.KernelIdeal.main_arg4 (by decide) (by decide) (by decide) (by decide) (by decide) (by decide)),
        (h c _ (Cert.KernelIdeal.Run.mem_uc Cert.KernelIdeal.main_arg5 (by decide))).trans (Cert.KernelIdeal.Run.W6_kept m ρ c Cert.KernelIdeal.main_arg5 (by decide) (by decide) (by decide) (by decide) (by decide) (by decide)),
        (h c _ (Cert.KernelIdeal.Run.mem_uc Cert.KernelIdeal.main_arg6 (by decide))).trans (Cert.KernelIdeal.Run.W6_kept m ρ c Cert.KernelIdeal.main_arg6 (by decide) (by decide) (by decide) (by decide) (by decide) (by decide)),
        (h c _ (Cert.KernelIdeal.Run.mem_uc Cert.KernelIdeal.main_arg7 (by decide))).trans (Cert.KernelIdeal.Run.W6_kept m ρ c Cert.KernelIdeal.main_arg7 (by decide) (by decide) (by decide) (by decide) (by decide) (by decide)),
        (h c _ (Cert.KernelIdeal.Run.mem_uc Cert.KernelIdeal.main_arg8 (by decide))).trans (Cert.KernelIdeal.Run.W6_kept m ρ c Cert.KernelIdeal.main_arg8 (by decide) (by decide) (by decide) (by decide) (by decide) (by decide))⟩) (Cert.KernelIdeal.Run.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    funext i
    obtain ⟨n, s, o, rfl⟩ : ∃ (n : Fin 2) (s : Fin 2048) (o : Fin 1024), i = ix3 n s o := ⟨i 0, i 1, i 2, eq_ix3 i⟩
    exact (Cert.ReferenceIdeal.RefValue.ref_eq _ _ _ _ _ _ _ _ _ n s o).trans (Cert.KernelIdeal.Result.result_eq m ρ c n s o).symm

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
